-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg16 : FVec F S64 .f32) (main_arg17 : FVec F S64x64 .f32) (main_arg18 : FVec F S64x64 .f32) (main_arg19 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64x64 .f32 := Host.absf main_arg18
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_v83 main_v84 main_cst_32

def fn_part3 {F : FTy → Type} [FloatOps F] (main_arg13 : FVec F S64 .f32) (main_arg14 : FVec F S64 .f32) (main_arg15 : FVec F S64 .f32) (main_arg16 : FVec F S64 .f32) (main_arg17 : FVec F S64x64 .f32) (main_arg18 : FVec F S64x64 .f32) (main_arg19 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_v63 main_v67

def fn_part2 {F : FTy → Type} [FloatOps F] (main_arg9 : FVec F S64 .f32) (main_arg10 : FVec F S64x64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64x64 .f32) (main_arg19 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_v48 main_v49 main_v50

def fn_part1 {F : FTy → Type} [FloatOps F] (main_arg6 : FVec F S64 .f32) (main_arg7 : FVec F S64 .f32) (main_arg8 : FVec F S64 .f32) (main_arg9 : FVec F S64 .f32) (main_arg10 : FVec F S64x64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64x64 .f32) (main_arg19 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x64 .f32) (main_arg1 : IVec S1600000 32) (main_arg2 : IVec S1600000 32) (main_arg3 : FVec F S64x64 .f32) (main_arg4 : FVec F S64x64 .f32) (main_arg5 : FVec F S64 .f32) (main_arg6 : FVec F S64 .f32) (main_arg7 : FVec F S64 .f32) (main_arg8 : FVec F S64 .f32) (main_arg9 : FVec F S64 .f32) (main_arg10 : FVec F S64x64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64x64 .f32) (main_arg19 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S4000x64 : Shape := ⟨2, ![4000, 64]⟩
abbrev S4000x1 : Shape := ⟨2, ![4000, 1]⟩
abbrev S4000 : Shape := ⟨1, ![4000]⟩

abbrev nBuf : Space → Nat
  | .hbm => 92
  | .vmem => 41
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64x64, .f32⟩
  | .hbm, ⟨18, _⟩ => ⟨S64x64, .f32⟩
  | .hbm, ⟨19, _⟩ => ⟨S64, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .bf16⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .bf16⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S100000x64, .f32⟩
  | .hbm, ⟨54, _⟩ => ⟨S100000x64, .bf16⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .bf16⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S1x64, .f32⟩
  | .hbm, ⟨70, _⟩ => ⟨S1x64, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S100000x64, .f32⟩
  | .hbm, ⟨75, _⟩ => ⟨S100000x64, .bf16⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x64, .bf16⟩
  | .hbm, ⟨85, _⟩ => ⟨S1600000x64, .f32⟩
  | .hbm, ⟨86, _⟩ => ⟨S_, .f32⟩
  | .hbm, ⟨87, _⟩ => ⟨S100000x64, .f32⟩
  | .hbm, ⟨88, _⟩ => ⟨S1600000x1, .i32⟩
  | .hbm, ⟨89, _⟩ => ⟨S100000x64, .f32⟩
  | .hbm, ⟨90, _⟩ => ⟨S1x64, .f32⟩
  | .hbm, ⟨91, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x1, .f32⟩
  | .local _ .vmem, ⟨20, _⟩ => ⟨S4000x1, .f32⟩
  | .local _ .vmem, ⟨21, _⟩ => ⟨S64x64, .f32⟩
  | .local _ .vmem, ⟨22, _⟩ => ⟨S64x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x1, .f32⟩
  | .local _ .vmem, ⟨35, _⟩ => ⟨S4000x1, .f32⟩
  | .local _ .vmem, ⟨36, _⟩ => ⟨S64x64, .f32⟩
  | .local _ .vmem, ⟨37, _⟩ => ⟨S64x64, .f32⟩
  | .local _ .vmem, ⟨38, _⟩ => ⟨S1x64, .f32⟩
  | .local _ .vmem, ⟨39, _⟩ => ⟨S4000x64, .f32⟩
  | .local _ .vmem, ⟨40, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_c_3 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_5 : Ref sig .tc := ⟨.hbm, 55, rfl⟩
abbrev main_v28 : Ref sig .tc := ⟨.hbm, 56, rfl⟩
abbrev main_v29 : Ref sig .tc := ⟨.hbm, 57, rfl⟩
abbrev main_c_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_7 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_8 : Ref sig .tc := ⟨.hbm, 76, rfl⟩
abbrev main_v46 : Ref sig .tc := ⟨.hbm, 77, rfl⟩
abbrev main_v47 : Ref sig .tc := ⟨.hbm, 78, rfl⟩
abbrev main_c_9 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg6_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem6_1 : DmaSem sig := 40

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x64 : S_.BroadcastsInDim S100000x64 (![] : Fin 0 → Fin S100000x64.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_1_0_0_n_n_wf : DotDims.WF S4000x64 S64x64 S4000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x64.size a ≤ S100000x64.size a
  hwx0_10 : ∀ i : grid0.Coords, EltTy.bits .f32 = 32 ∨ (Rect.block (s := S100000x64) S4000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x64.size a ≤ S100000x64.size a
  hwx1_10 : ∀ i : grid1.Coords, EltTy.bits .f32 = 32 ∨ (Rect.block (s := S100000x64) S4000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x64.size a ≤ S100000x64.size a
  hwx2_6 : ∀ i : grid2.Coords, EltTy.bits .f32 = 32 ∨ (Rect.block (s := S100000x64) S4000x64.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_1_0_0_n_n : DotDims S4000x64 S64x64 S4000x64 where
  lhsContracting := [1]
  rhsContracting := [1]
  lhsNonContracting := [0]
  rhsNonContracting := [0]
  lhsBatch := []
  rhsBatch := []
  wf := dot_S4000x64_S64x64_S4000x64_1_1_0_0_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S4000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v26) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v43) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v44) S4000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v44) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg17) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S4000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 187
  | .vmem => 0
  | .smem => 0
  | _ => 0

abbrev hbmTy0_0 (i : Nat) : BufTy := match i % 128 with
  | 0 => ⟨S100000x64, .f32⟩
  | 1 => ⟨S1600000, .i32⟩
  | 2 => ⟨S1600000, .i32⟩
  | 3 => ⟨S64x64, .f32⟩
  | 4 => ⟨S64x64, .f32⟩
  | 5 => ⟨S64, .f32⟩
  | 6 => ⟨S64, .f32⟩
  | 7 => ⟨S64, .f32⟩
  | 8 => ⟨S64, .f32⟩
  | 9 => ⟨S64, .f32⟩
  | 10 => ⟨S64x64, .f32⟩
  | 11 => ⟨S64x64, .f32⟩
  | 12 => ⟨S64, .f32⟩
  | 13 => ⟨S64, .f32⟩
  | 14 => ⟨S64, .f32⟩
  | 15 => ⟨S64, .f32⟩
  | 16 => ⟨S64, .f32⟩
  | 17 => ⟨S64x64, .f32⟩
  | 18 => ⟨S64x64, .f32⟩
  | 19 => ⟨S64, .f32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x64, .f32⟩
  | 35 => ⟨S_, .f32⟩
  | 36 => ⟨S100000x64, .f32⟩
  | 37 => ⟨S1600000x1, .i32⟩
  | 38 => ⟨S100000x64, .f32⟩
  | 39 => ⟨S_, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S64x64, .f32⟩
  | 46 => ⟨S100000x64, .f32⟩
  | 47 => ⟨S64x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S100000x64, .f32⟩
  | 54 => ⟨S_, .f32⟩
  | 55 => ⟨S100000, .f32⟩
  | 56 => ⟨S100000x1, .f32⟩
  | 57 => ⟨S100000x1, .f32⟩
  | 58 => ⟨S_, .f32⟩
  | 59 => ⟨S100000x1, .f32⟩
  | 60 => ⟨S100000x1, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S64, .f32⟩
  | 71 => ⟨S64, .f32⟩
  | 72 => ⟨S64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S_, .f32⟩
  | 83 => ⟨S1600000, .f32⟩
  | 84 => ⟨S_, .f32⟩
  | 85 => ⟨S100000, .f32⟩
  | 86 => ⟨S1600000x1, .i32⟩
  | 87 => ⟨S100000, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x64, .f32⟩
  | 97 => ⟨S_, .f32⟩
  | 98 => ⟨S100000x64, .f32⟩
  | 99 => ⟨S1600000x1, .i32⟩
  | 100 => ⟨S100000x64, .f32⟩
  | 101 => ⟨S_, .f32⟩
  | 102 => ⟨S100000, .f32⟩
  | 103 => ⟨S100000, .f32⟩
  | 104 => ⟨S100000x1, .f32⟩
  | 105 => ⟨S100000x64, .f32⟩
  | 106 => ⟨S100000x64, .f32⟩
  | 107 => ⟨S64x64, .f32⟩
  | 108 => ⟨S100000x64, .f32⟩
  | 109 => ⟨S64x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S100000x64, .f32⟩
  | 116 => ⟨S_, .f32⟩
  | 117 => ⟨S100000, .f32⟩
  | 118 => ⟨S100000x1, .f32⟩
  | 119 => ⟨S100000x1, .f32⟩
  | 120 => ⟨S_, .f32⟩
  | 121 => ⟨S100000x1, .f32⟩
  | 122 => ⟨S100000x1, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S64, .f32⟩
  | 5 => ⟨S64, .f32⟩
  | 6 => ⟨S64, .f32⟩
  | 7 => ⟨S1x64, .f32⟩
  | 8 => ⟨S100000x64, .f32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x64, .f32⟩
  | 31 => ⟨S_, .f32⟩
  | 32 => ⟨S100000x64, .f32⟩
  | 33 => ⟨S1600000x1, .i32⟩
  | 34 => ⟨S100000x64, .f32⟩
  | 35 => ⟨S_, .f32⟩
  | 36 => ⟨S100000, .f32⟩
  | 37 => ⟨S100000, .f32⟩
  | 38 => ⟨S100000x1, .f32⟩
  | 39 => ⟨S100000x64, .f32⟩
  | 40 => ⟨S100000x64, .f32⟩
  | 41 => ⟨S64x64, .f32⟩
  | 42 => ⟨S100000x64, .f32⟩
  | 43 => ⟨S64x64, .f32⟩
  | 44 => ⟨S100000x64, .f32⟩
  | 45 => ⟨S100000x64, .f32⟩
  | 46 => ⟨S1x64, .f32⟩
  | 47 => ⟨S100000x64, .f32⟩
  | 48 => ⟨S100000x64, .f32⟩
  | 49 => ⟨S100000x64, .f32⟩
  | 50 => ⟨S_, .f32⟩
  | 51 => ⟨S100000, .f32⟩
  | 52 => ⟨S100000x1, .f32⟩
  | 53 => ⟨S100000x1, .f32⟩
  | 54 => ⟨S_, .f32⟩
  | 55 => ⟨S100000x1, .f32⟩
  | 56 => ⟨S100000x1, .f32⟩
  | 57 => ⟨S100000x64, .f32⟩
  | 58 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_1 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call0_cst : Ref sig .tc := ⟨.hbm, 79, rfl⟩
abbrev main_call0_v0 : Ref sig .tc := ⟨.hbm, 80, rfl⟩
abbrev main_v50 : Ref sig .tc := ⟨.hbm, 81, rfl⟩
abbrev main_cst_7 : Ref sig .tc := ⟨.hbm, 82, rfl⟩
abbrev main_v51 : Ref sig .tc := ⟨.hbm, 83, rfl⟩
abbrev main_cst_8 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_9 : Ref sig .tc := ⟨.hbm, 88, rfl⟩
abbrev main_v55 : Ref sig .tc := ⟨.hbm, 89, rfl⟩
abbrev main_v56 : Ref sig .tc := ⟨.hbm, 90, rfl⟩
abbrev main_c_10 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_11 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_12 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_13 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_14 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_15 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_call1_cst : Ref sig .tc := ⟨.hbm, 141, rfl⟩
abbrev main_call1_v0 : Ref sig .tc := ⟨.hbm, 142, rfl⟩
abbrev main_v101 : Ref sig .tc := ⟨.hbm, 143, rfl⟩
abbrev main_cst_16 : Ref sig .tc := ⟨.hbm, 144, rfl⟩
abbrev main_v102 : Ref sig .tc := ⟨.hbm, 145, rfl⟩
abbrev main_cst_17 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_c_18 : Ref sig .tc := ⟨.hbm, 150, rfl⟩
abbrev main_v106 : Ref sig .tc := ⟨.hbm, 151, rfl⟩
abbrev main_v107 : Ref sig .tc := ⟨.hbm, 152, rfl⟩
abbrev main_c_19 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_20 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_21 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_22 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_23 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S_S64 : S_.BroadcastsInDim S64 (![] : Fin 0 → Fin S64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The three-layer program's run with its result NAMED: every weakly fair execution terminates, nothing faults,
  the argument arrays end as launched, and the result array ends at the contents the last region's write-backs
  leave (the fold of the program's segments from the launch memory, read at the result's buffer).
-/
import proofs.«153891_j51084341018874_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: the launch over the program's six segments, the last thread state read against the
    final memory; the result's buffer is read where the arguments' are. -/
theorem run_named : θ_run defs (onTc (τ := τ) (main (F := F))) ⟨m, fun _ => 0, ρ⟩ (fun r => ∀ c : Dev nD,
      r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c)⟩)

end Cert.KernelIdeal.Named

end
-- ==== Proof.Spec.lean ====
/-
  The mathematics of one graph-convolution layer on the extended reals, index by index, and the one law that
  joins the two programs.

  A layer takes the node features h (100000 rows of 64), the mean of the neighbours' features hn, two 64×64
  weight matrices and a bias, and forms, for node i and output channel j,
      lin i j  =  Σ_k h i k · w1 j k  +  Σ_k hn i k · w2 j k  +  b j ,
  then scales row i to unit Euclidean length (the length floored at a small positive constant),
      unit i j =  lin i j / max (√(Σ_q (lin i q)²)) ε .
  The first two layers then apply an affine map per channel with a reciprocal square root of a shifted variance,
  and clamp below at zero.

  The neighbours' mean: one program divides the neighbours' sum by d = max (degree, 1); the other multiplies the
  sum by the precomputed 1 / d.  Since d is never zero (it is at least one), on the extended reals both are the
  product with d⁻¹: a / d = a · d⁻¹ and 1 / d = d⁻¹.  No finiteness is needed.
-/
import Idealize.ShloMosaic.PureOps.Ideal

noncomputable section

namespace Cert.Sage.Spec

open Idealize.ShloMosaic

/-- The floor of a row's length, the binary value of the f32 word nearest 1e-12. -/
abbrev epsLen : EReal := Ideal.ofBits .f32 0x2B8CBCCC#32
/-- The shift of the variance, the binary value of the f32 word nearest 1e-5. -/
abbrev epsVar : EReal := Ideal.ofBits .f32 0x3727C5AC#32
/-- The f32 word of 1.0. -/
abbrev oneW : EReal := Ideal.ofBits .f32 0x3F800000#32
/-- The f32 word of +0.0. -/
abbrev zeroW : EReal := Ideal.ofBits .f32 0x00000000#32

/-- Both linear maps and the bias, at node i and channel j. -/
def lin (h hn : Fin 100000 → Fin 64 → EReal) (w1 w2 : Fin 64 → Fin 64 → EReal) (b : Fin 64 → EReal)
    (i : Fin 100000) (j : Fin 64) : EReal :=
  (∑ k : Fin 64, h i k * w1 j k) + (∑ k : Fin 64, hn i k * w2 j k) + b j

/-- A row scaled to unit length, the length floored at `epsLen`. -/
def unitRow (u : Fin 64 → EReal) (j : Fin 64) : EReal :=
  Ideal.div (u j) (max (Ideal.sqrt (∑ q : Fin 64, u q * u q)) epsLen)

/-- The per-channel affine map with the reciprocal square root of the shifted variance, clamped below at zero. -/
def bnRelu (g bb mm vv : Fin 64 → EReal) (x : EReal) (j : Fin 64) : EReal :=
  max (g j * (x - mm j) * Ideal.rsqrt (vv j + epsVar) + bb j) zeroW

/-- A layer without the affine map (the last one). -/
def layerN (h hn : Fin 100000 → Fin 64 → EReal) (w1 w2 : Fin 64 → Fin 64 → EReal) (b : Fin 64 → EReal)
    (i : Fin 100000) (j : Fin 64) : EReal :=
  unitRow (lin h hn w1 w2 b i) j

/-- A layer with the affine map and the clamp (the first two). -/
def layerB (h hn : Fin 100000 → Fin 64 → EReal) (w1 w2 : Fin 64 → Fin 64 → EReal) (b g bb mm vv : Fin 64 → EReal)
    (i : Fin 100000) (j : Fin 64) : EReal :=
  bnRelu g bb mm vv (layerN h hn w1 w2 b i j) j

/-- The neighbours' mean from their sum and the degree: the sum divided by max (degree, 1). -/
def hnDiv (agg : Fin 100000 → Fin 64 → EReal) (deg : Fin 100000 → EReal) (i : Fin 100000) (k : Fin 64) : EReal :=
  Ideal.div (agg i k) (max (deg i) oneW)

/-- The neighbours' mean as the other program forms it: the sum times a precomputed reciprocal of the degree. -/
def hnMul (agg : Fin 100000 → Fin 64 → EReal) (inv : Fin 100000 → EReal) (i : Fin 100000) (k : Fin 64) : EReal :=
  agg i k * inv i

/-- The f32 word of 1.0 denotes 1. -/
theorem oneW_eq : oneW = 1 := by
  simp [oneW, Ideal.ofBits, Ideal.ieee, -EReal.coe_mul]; norm_num

/-- max (d, 1) is not zero. -/
theorem max_one_ne_zero (d : EReal) : max d oneW ≠ 0 := by
  rw [oneW_eq]
  exact ne_of_gt (lt_of_lt_of_le zero_lt_one (le_max_right d 1))

/-- Off zero, the product with 1 / d is the quotient by d: both are the product with d⁻¹. -/
theorem mul_recip (a d : EReal) (hd : d ≠ 0) : a * Ideal.div oneW d = Ideal.div a d := by
  rw [oneW_eq]
  unfold Ideal.div
  rw [if_neg hd, if_neg hd, one_mul]

end Cert.Sage.Spec

end
-- ==== Proof.LibColumns.lean ====
/-
  Two layout readings used by every stage: a vector recast as a one-column matrix read at `(p, 0)`, and a scalar
  broadcast to any shape read at any index.
-/
import Idealize.ShloMosaic.Lib.ValueIdx
import Idealize.ShloMosaic.Lib.Pipeline.Value

noncomputable section

namespace Cert.Sage.Layout

open Idealize.ShloMosaic Idealize.ShloMosaic.ValueIdx

/-- An `[n]` array cast to `[n, 1]` reads, at `(p, 0)`, the operand at `p`. -/
theorem shapeCast_n_n1_apply {α : Type} {n : ℕ} (x : (⟨1, ![n]⟩ : Shape).Idx → α) (h : (⟨1, ![n]⟩ : Shape).ShapeCasts ⟨2, ![n, 1]⟩)
    (p : Fin n) : shapeCast ⟨2, ![n, 1]⟩ x h (ix2 p (0 : Fin 1)) = x (ix1 p) :=
  shapeCast_apply x h _ _ (by
    rw [Shape.rowMajor_val_one, Shape.rowMajor_val_two]
    show p.val = p.val * 1 + 0
    omega)

/-- A scalar broadcast to a shape reads, at every index, the scalar. -/
theorem broadcastInDim_scalar_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

end Cert.Sage.Layout

end
-- ==== Proof.Core.lean ====
/-
  One block of a layer, read entry by entry.

  A block holds 4000 consecutive nodes.  From the block of node features x0, the block of neighbours' sums x1,
  the column x2 of reciprocal degrees, the two weight matrices x3, x4 and the bias row x5, the body forms at
  (p, q)
      Σ_k x0 p k · x3 q k  +  Σ_k (x1 p k · x2 p) · x4 q k  +  x5 q
  (both matrix products contract the SECOND axis of both operands, into a zero accumulator; the changes of float
  format on the way in are the identity on the extended reals), and scales row p to unit length.
-/
import proofs.«153891_j51084341018874_2_alg».proof.Proof.Gen.KernelIdeal
import proofs.«153891_j51084341018874_2_alg».proof.Proof.Gen.KernelIdeal.Skeleton
import proofs.«153891_j51084341018874_2_alg».proof.Proof.Spec
import proofs.«153891_j51084341018874_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.Sage.Block

open Idealize.ShloMosaic Idealize.ShloMosaic.ValueIdx Cert.KernelIdeal Cert.KernelIdeal.Gen

/-- A column [a, 1] repeated across b columns reads, at (p, c), the column's entry p. -/
theorem column_across {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product that contracts the second axis of both operands -/

theorem lhs_row (i : S4000x64.Idx) (q : dot_S4000x64_S64x64_S4000x64_1_1_0_0_n_n.contr.Idx) : (dot_S4000x64_S64x64_S4000x64_1_1_0_0_n_n.lhsIdx i q 0).val = (i 0).val := by
  unfold DotDims.lhsIdx
  rw [dif_neg (show ¬(0 : Fin S4000x64.rank) ∈ dot_S4000x64_S64x64_S4000x64_1_1_0_0_n_n.lhsBatch by decide), dif_pos (show (0 : Fin S4000x64.rank) ∈ dot_S4000x64_S64x64_S4000x64_1_1_0_0_n_n.lhsNonContracting by decide)]
  rfl
theorem lhs_contr (i : S4000x64.Idx) (q : dot_S4000x64_S64x64_S4000x64_1_1_0_0_n_n.contr.Idx) : (dot_S4000x64_S64x64_S4000x64_1_1_0_0_n_n.lhsIdx i q 1).val = (q ⟨0, by decide⟩).val :=
  dot_S4000x64_S64x64_S4000x64_1_1_0_0_n_n.lhsIdx_val_of_single rfl i q
theorem rhs_row (i : S4000x64.Idx) (q : dot_S4000x64_S64x64_S4000x64_1_1_0_0_n_n.contr.Idx) : (dot_S4000x64_S64x64_S4000x64_1_1_0_0_n_n.rhsIdx i q 0).val = (i 1).val := by
  unfold DotDims.rhsIdx
  rw [dif_neg (show ¬(0 : Fin S64x64.rank) ∈ dot_S4000x64_S64x64_S4000x64_1_1_0_0_n_n.rhsBatch by decide), dif_pos (show (0 : Fin S64x64.rank) ∈ dot_S4000x64_S64x64_S4000x64_1_1_0_0_n_n.rhsNonContracting by decide)]
  rfl
theorem rhs_contr (i : S4000x64.Idx) (q : dot_S4000x64_S64x64_S4000x64_1_1_0_0_n_n.contr.Idx) : (dot_S4000x64_S64x64_S4000x64_1_1_0_0_n_n.rhsIdx i q 1).val = (q ⟨0, by decide⟩).val :=
  dot_S4000x64_S64x64_S4000x64_1_1_0_0_n_n.rhsIdx_val_of_single rfl i q

/-- Into the zero accumulator the product at (p, q) is Σ_k x p k · w q k. -/
theorem matmul_rows {φ₁ φ₂ : FTy} (x : FVec Ideal S4000x64 φ₁) (w : FVec Ideal S64x64 φ₂) (p : Fin 4000) (q : Fin 64) :
    matmul dot_S4000x64_S64x64_S4000x64_1_1_0_0_n_n none x w (constant (F := Ideal) S4000x64 .f32 0x00000000#32) (ix2 p q)
      = ∑ k : Fin 64, x (ix2 p k) * w (ix2 q k) := by
  refine (Ideal.matmul_constant_zero_apply dot_S4000x64_S64x64_S4000x64_1_1_0_0_n_n none x w (ix2 p q)).trans ?_
  rw [← Equiv.sum_comp (contrEquiv1 dot_S4000x64_S64x64_S4000x64_1_1_0_0_n_n 64 rfl rfl).symm]
  refine Finset.sum_congr rfl fun k _ => ?_
  have hk := contrEquiv1_symm_val dot_S4000x64_S64x64_S4000x64_1_1_0_0_n_n 64 rfl rfl k
  have el : dot_S4000x64_S64x64_S4000x64_1_1_0_0_n_n.lhsIdx (ix2 p q) ((contrEquiv1 dot_S4000x64_S64x64_S4000x64_1_1_0_0_n_n 64 rfl rfl).symm k) = ix2 p k := funext fun a => Fin.ext (by
    match a with
    | ⟨0, _⟩ => exact lhs_row _ _
    | ⟨1, _⟩ => exact (lhs_contr _ _).trans hk)
  have er : dot_S4000x64_S64x64_S4000x64_1_1_0_0_n_n.rhsIdx (ix2 p q) ((contrEquiv1 dot_S4000x64_S64x64_S4000x64_1_1_0_0_n_n 64 rfl rfl).symm k) = ix2 q k := funext fun a => Fin.ext (by
    match a with
    | ⟨0, _⟩ => exact rhs_row _ _
    | ⟨1, _⟩ => exact (rhs_contr _ _).trans hk)
  rw [el, er]

/-! ## The sum along a row -/

/-- The sum over the second axis, at row p, is Σ_k v p k. -/
theorem row_sum (v : FVec Ideal S4000x64 .f32) (p : Fin 4000) :
    multiReduction .add [1] S4000 v 0x00000000#32 reduces_S4000x64_S4000 (.inl rfl) rfl (ix1 p)
      = ∑ k : Fin 64, v (ix2 p k) := by
  refine (Ideal.multiReduction_add_single v 0x00000000#32 reduces_S4000x64_S4000 (.inl rfl) rfl (ix1 p)).trans ?_
  show ∑ k : Fin 64, v (reduces_S4000x64_S4000.lift (ix1 p) k) = _
  exact Finset.sum_congr rfl fun k _ => congrArg v (funext fun c => Fin.ext (by
    match c with
    | ⟨0, _⟩ => rfl
    | ⟨1, _⟩ => rfl))

/-! ## The body's arithmetic at an entry -/

/-- Both linear maps and the bias on a block, at (p, q). -/
def blockLin (x0 x1 : Vec Ideal S4000x64 .f32) (x2 : Vec Ideal S4000x1 .f32) (x3 x4 : Vec Ideal S64x64 .f32)
    (x5 : Vec Ideal S1x64 .f32) (p : Fin 4000) (q : Fin 64) : EReal :=
  (∑ k : Fin 64, x0 (ix2 p k) * x3 (ix2 q k))
    + (∑ k : Fin 64, (x1 (ix2 p k) * x2 (ix2 p (0 : Fin 1))) * x4 (ix2 q k))
    + x5 (ix2 (0 : Fin 1) q)

/-- The linear part of the body at (p, q): the two products into zero accumulators added, plus the bias row. -/
theorem lin_head (x0 x1 : Vec Ideal S4000x64 .f32) (x2 : Vec Ideal S4000x1 .f32) (x3 x4 : Vec Ideal S64x64 .f32)
    (x5 : Vec Ideal S1x64 .f32) (p : Fin 4000) (q : Fin 64) :
    addf (addf (matmul dot_S4000x64_S64x64_S4000x64_1_1_0_0_n_n none (truncf .bf16 x0 bitsLt_bf16_f32) (truncf .bf16 x3 bitsLt_bf16_f32) (constant (F := Ideal) S4000x64 .f32 0x00000000#32))
        (matmul dot_S4000x64_S64x64_S4000x64_1_1_0_0_n_n none (truncf .bf16 (mulf x1 (broadcastTo S4000x64 x2 broadcasts_S4000x1_S4000x64)) bitsLt_bf16_f32) (truncf .bf16 x4 bitsLt_bf16_f32) (constant (F := Ideal) S4000x64 .f32 0x00000000#32)))
      (broadcastTo S4000x64 x5 broadcasts_S1x64_S4000x64) (ix2 p q)
      = blockLin x0 x1 x2 x3 x4 x5 p q := by
  show (matmul dot_S4000x64_S64x64_S4000x64_1_1_0_0_n_n none (truncf .bf16 x0 bitsLt_bf16_f32) (truncf .bf16 x3 bitsLt_bf16_f32) (constant (F := Ideal) S4000x64 .f32 0x00000000#32) (ix2 p q)
      + matmul dot_S4000x64_S64x64_S4000x64_1_1_0_0_n_n none (truncf .bf16 (mulf x1 (broadcastTo S4000x64 x2 broadcasts_S4000x1_S4000x64)) bitsLt_bf16_f32) (truncf .bf16 x4 bitsLt_bf16_f32) (constant (F := Ideal) S4000x64 .f32 0x00000000#32) (ix2 p q))
      + broadcastTo S4000x64 x5 broadcasts_S1x64_S4000x64 (ix2 p q) = _
  rw [matmul_rows, matmul_rows, broadcastTo_1b_ab_apply]
  unfold blockLin
  refine congrArg₂ (· + ·) (congrArg₂ (· + ·) rfl (Finset.sum_congr rfl fun k _ => ?_)) rfl
  show (x1 (ix2 p k) * broadcastTo S4000x64 x2 broadcasts_S4000x1_S4000x64 (ix2 p k)) * x4 (ix2 q k) = _
  rw [column_across]

/-- The scaling to unit length at (p, q): the entry over the row's length, the length floored. -/
theorem unit_tail (u : FVec Ideal S4000x64 .f32) (p : Fin 4000) (q : Fin 64) :
    divf u (broadcastTo S4000x64 (maximumf (sqrt (shapeCast S4000x1 (multiReduction .add [1] S4000 (mulf u u) 0x00000000#32 reduces_S4000x64_S4000 (.inl rfl) rfl) shapeCasts_S4000_S4000x1))
        (broadcast S4000x1 (Scalar.ofBits .f32 0x2B8CBCCC#32))) broadcasts_S4000x1_S4000x64) (ix2 p q)
      = Spec.unitRow (fun q' => u (ix2 p q')) q := by
  show Ideal.div (u (ix2 p q)) (broadcastTo S4000x64 (maximumf (sqrt (shapeCast S4000x1 (multiReduction .add [1] S4000 (mulf u u) 0x00000000#32 reduces_S4000x64_S4000 (.inl rfl) rfl) shapeCasts_S4000_S4000x1))
        (broadcast S4000x1 (Scalar.ofBits .f32 0x2B8CBCCC#32))) broadcasts_S4000x1_S4000x64 (ix2 p q)) = _
  rw [column_across]
  show Ideal.div (u (ix2 p q)) (max (Ideal.sqrt (shapeCast S4000x1 (multiReduction .add [1] S4000 (mulf u u) 0x00000000#32 reduces_S4000x64_S4000 (.inl rfl) rfl) shapeCasts_S4000_S4000x1 (ix2 p (0 : Fin 1))))
        (Ideal.ofBits .f32 0x2B8CBCCC#32)) = _
  rw [Cert.Sage.Layout.shapeCast_n_n1_apply, row_sum]
  rfl

/-- The body up to the unit scaling, at (p, q). -/
theorem core_apply (x0 x1 : Vec Ideal S4000x64 .f32) (x2 : Vec Ideal S4000x1 .f32) (x3 x4 : Vec Ideal S64x64 .f32)
    (x5 : Vec Ideal S1x64 .f32) (p : Fin 4000) (q : Fin 64) :
    k0_pay2 (F := Ideal) x0 x1 x2 x3 x4 x5 (ix2 p q) = Spec.unitRow (blockLin x0 x1 x2 x3 x4 x5 p) q := by
  unfold k0_pay2
  dsimp only
  simp only [shapeCast_self]
  refine (unit_tail _ p q).trans ?_
  exact congrArg (fun f => Spec.unitRow f q) (funext fun q' => lin_head x0 x1 x2 x3 x4 x5 p q')

/-- The same for the second layer's body (its operand casts to their own shapes are the identity). -/
theorem core_apply1 (x0 x1 : Vec Ideal S4000x64 .f32) (x2 : Vec Ideal S4000x1 .f32) (x3 x4 : Vec Ideal S64x64 .f32)
    (x5 : Vec Ideal S1x64 .f32) (p : Fin 4000) (q : Fin 64) :
    k1_pay2 (F := Ideal) x0 x1 x2 x3 x4 x5 (ix2 p q) = Spec.unitRow (blockLin x0 x1 x2 x3 x4 x5 p) q := by
  unfold k1_pay2
  dsimp only
  simp only [shapeCast_self]
  refine (unit_tail _ p q).trans ?_
  exact congrArg (fun f => Spec.unitRow f q) (funext fun q' => lin_head x0 x1 x2 x3 x4 x5 p q')

/-- The same for the third layer's body (its operand casts to their own shapes are the identity). -/
theorem core_apply2 (x0 x1 : Vec Ideal S4000x64 .f32) (x2 : Vec Ideal S4000x1 .f32) (x3 x4 : Vec Ideal S64x64 .f32)
    (x5 : Vec Ideal S1x64 .f32) (p : Fin 4000) (q : Fin 64) :
    k2_pay1 (F := Ideal) x0 x1 x2 x3 x4 x5 (ix2 p q) = Spec.unitRow (blockLin x0 x1 x2 x3 x4 x5 p) q := by
  unfold k2_pay1
  dsimp only
  simp only [shapeCast_self]
  refine (unit_tail _ p q).trans ?_
  exact congrArg (fun f => Spec.unitRow f q) (funext fun q' => lin_head x0 x1 x2 x3 x4 x5 p q')

/-- The block's linear part is the whole array's, once the block's rows are the array's. -/
theorem blockLin_eq (x0 x1 : Vec Ideal S4000x64 .f32) (x2 : Vec Ideal S4000x1 .f32) (x3 x4 : Vec Ideal S64x64 .f32)
    (x5 : Vec Ideal S1x64 .f32) (p : Fin 4000)
    (H HN : Fin 100000 → Fin 64 → EReal) (W1 W2 : Fin 64 → Fin 64 → EReal) (B : Fin 64 → EReal) (r : Fin 100000)
    (h0 : ∀ k, x0 (ix2 p k) = H r k) (h1 : ∀ k, x1 (ix2 p k) * x2 (ix2 p (0 : Fin 1)) = HN r k)
    (h3 : ∀ a k, x3 (ix2 a k) = W1 a k) (h4 : ∀ a k, x4 (ix2 a k) = W2 a k) (h5 : ∀ a, x5 (ix2 (0 : Fin 1) a) = B a) :
    blockLin x0 x1 x2 x3 x4 x5 p = Spec.lin H HN W1 W2 B r := by
  funext q
  unfold blockLin Spec.lin
  simp only [h0, h1, h3, h4, h5]

/-- The affine map and the clamp at (p, q). -/
theorem bn_tail (v : FVec Ideal S4000x64 .f32) (x6 x7 x8 x9 : Vec Ideal S1x64 .f32) (p : Fin 4000) (q : Fin 64) :
    k0_pay1 (F := Ideal) v (k0_pay3 x6) (k0_pay4 x7) (k0_pay5 x8) x9 (ix2 p q)
      = Spec.bnRelu (fun a => x6 (ix2 (0 : Fin 1) a)) (fun a => x7 (ix2 (0 : Fin 1) a)) (fun a => x8 (ix2 (0 : Fin 1) a))
          (fun a => x9 (ix2 (0 : Fin 1) a)) (v (ix2 p q)) q := by
  unfold k0_pay1 k0_pay3 k0_pay4 k0_pay5
  dsimp only
  simp only [shapeCast_self]
  show max ((broadcastTo S4000x64 x6 broadcasts_S1x64_S4000x64 (ix2 p q) * (v (ix2 p q) - broadcastTo S4000x64 x8 broadcasts_S1x64_S4000x64 (ix2 p q)))
        * broadcastTo S4000x64 (rsqrt (addf x9 (broadcast S1x64 (Scalar.ofBits (F := Ideal) .f32 0x3727C5AC#32))) : FVec Ideal S1x64 .f32) broadcasts_S1x64_S4000x64 (ix2 p q)
        + broadcastTo S4000x64 x7 broadcasts_S1x64_S4000x64 (ix2 p q)) (Ideal.ofBits .f32 0x00000000#32) = _
  simp only [broadcastTo_1b_ab_apply]
  rfl

/-- The same for the second layer's body. -/
theorem bn_tail1 (v : FVec Ideal S4000x64 .f32) (x6 x7 x8 x9 : Vec Ideal S1x64 .f32) (p : Fin 4000) (q : Fin 64) :
    k1_pay1 (F := Ideal) v (k1_pay3 x6) (k1_pay4 x7) (k1_pay5 x8) x9 (ix2 p q)
      = Spec.bnRelu (fun a => x6 (ix2 (0 : Fin 1) a)) (fun a => x7 (ix2 (0 : Fin 1) a)) (fun a => x8 (ix2 (0 : Fin 1) a))
          (fun a => x9 (ix2 (0 : Fin 1) a)) (v (ix2 p q)) q := by
  unfold k1_pay1 k1_pay3 k1_pay4 k1_pay5
  dsimp only
  simp only [shapeCast_self]
  show max ((broadcastTo S4000x64 x6 broadcasts_S1x64_S4000x64 (ix2 p q) * (v (ix2 p q) - broadcastTo S4000x64 x8 broadcasts_S1x64_S4000x64 (ix2 p q)))
        * broadcastTo S4000x64 (rsqrt (addf x9 (broadcast S1x64 (Scalar.ofBits (F := Ideal) .f32 0x3727C5AC#32))) : FVec Ideal S1x64 .f32) broadcasts_S1x64_S4000x64 (ix2 p q)
        + broadcastTo S4000x64 x7 broadcasts_S1x64_S4000x64 (ix2 p q)) (Ideal.ofBits .f32 0x00000000#32) = _
  simp only [broadcastTo_1b_ab_apply]
  rfl

end Cert.Sage.Block

end
-- ==== Proof.Layer0.lean ====
/-
  Layer 1 of the three: what its grid of 25 points writes back, as ONE function of the arrays it is entered with.

  Point t stages rows 4000·t … 4000·t + 3999 of the node features, of the neighbours' sums and of the reciprocal-degree
  column, and the whole of the weights and per-channel rows; its body's result is those rows of the layer's function;
  the 25 blocks tile the 100000 rows, so the array ends holding the layer's function everywhere.
-/
import proofs.«153891_j51084341018874_2_alg».proof.Proof.Gen.KernelIdeal.Frame
import proofs.«153891_j51084341018874_2_alg».proof.Proof.Core
import Idealize.ShloMosaic.Lib.Pipeline.Value

set_option maxRecDepth 16384

noncomputable section

namespace Cert.Sage.Layer0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: the three row-blocked windows and the output sit at block t
    of axis 0, the others at block 0. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = t.val
    ∧ win0_10.index t (1 : Fin 2) = 0
    ∧ t.val < 25 :=
  (by decide +kernel : ∀ t : Fin grid0.N, _)

/-- Window 0's block at point t holds rows 4000·t … 4000·t + 3999 of its array. -/
theorem rows_0 (c : Dev nD) (t : Fin cfg0.N) (p : Fin 4000) (k : Fin 64) (a : Fin 100000) (ha : a.val = 4000 * t.val + p.val) :
    (iblk0 V c 0 t : Vec Ideal S4000x64 .f32) (ix2 p k) = (V c main_arg0 : S100000x64.Idx → EReal) (ix2 a k) := by
  obtain ⟨e0, e1, e2, e3, e4, e5, e6, e7, e8, e9, e10, e11, e12, e13, e14, e15, e16, e17, e18, e19, e20, e21, e22⟩ := idx_facts t
  unfold iblk0
  rw [View.read_apply]
  show (V c main_arg0 : S100000x64.Idx → EReal) _ = (V c main_arg0 : S100000x64.Idx → EReal) _
  refine congrArg _ (funext fun ax => Fin.ext ?_)
  match ax with
  | ⟨0, _⟩ => show win0_0.index t (0 : Fin 2) * 4000 + 1 * p.val = a.val; omega
  | ⟨1, _⟩ => show win0_0.index t (1 : Fin 2) * 64 + 1 * k.val = k.val; omega

/-- Window 1's block at point t holds rows 4000·t … 4000·t + 3999 of its array. -/
theorem rows_1 (c : Dev nD) (t : Fin cfg0.N) (p : Fin 4000) (k : Fin 64) (a : Fin 100000) (ha : a.val = 4000 * t.val + p.val) :
    (iblk0 V c 1 t : Vec Ideal S4000x64 .f32) (ix2 p k) = (V c main_v20 : S100000x64.Idx → EReal) (ix2 a k) := by
  obtain ⟨e0, e1, e2, e3, e4, e5, e6, e7, e8, e9, e10, e11, e12, e13, e14, e15, e16, e17, e18, e19, e20, e21, e22⟩ := idx_facts t
  unfold iblk0
  rw [View.read_apply]
  show (V c main_v20 : S100000x64.Idx → EReal) _ = (V c main_v20 : S100000x64.Idx → EReal) _
  refine congrArg _ (funext fun ax => Fin.ext ?_)
  match ax with
  | ⟨0, _⟩ => show win0_1.index t (0 : Fin 2) * 4000 + 1 * p.val = a.val; omega
  | ⟨1, _⟩ => show win0_1.index t (1 : Fin 2) * 64 + 1 * k.val = k.val; omega

/-- Window 2's block at point t holds rows 4000·t … of the one-column array. -/
theorem rows_2 (c : Dev nD) (t : Fin cfg0.N) (p : Fin 4000) (a : Fin 100000) (ha : a.val = 4000 * t.val + p.val) :
    (iblk0 V c 2 t : Vec Ideal S4000x1 .f32) (ix2 p (0 : Fin 1)) = (V c main_v8 : S100000x1.Idx → EReal) (ix2 a (0 : Fin 1)) := by
  obtain ⟨e0, e1, e2, e3, e4, e5, e6, e7, e8, e9, e10, e11, e12, e13, e14, e15, e16, e17, e18, e19, e20, e21, e22⟩ := idx_facts t
  unfold iblk0
  rw [View.read_apply]
  show (V c main_v8 : S100000x1.Idx → EReal) _ = (V c main_v8 : S100000x1.Idx → EReal) _
  refine congrArg _ (funext fun ax => Fin.ext ?_)
  match ax with
  | ⟨0, _⟩ => show win0_2.index t (0 : Fin 2) * 4000 + 1 * p.val = a.val; omega
  | ⟨1, _⟩ => show win0_2.index t (1 : Fin 2) * 1 + 1 * 0 = 0; omega

/-- Window 3's block is its whole array at every point. -/
theorem whole_3 (c : Dev nD) (t : Fin cfg0.N) (a : Fin 64) (k : Fin 64) :
    (iblk0 V c 3 t : Vec Ideal S64x64 .f32) (ix2 a k) = (V c main_arg3 : S64x64.Idx → EReal) (ix2 a k) := by
  obtain ⟨e0, e1, e2, e3, e4, e5, e6, e7, e8, e9, e10, e11, e12, e13, e14, e15, e16, e17, e18, e19, e20, e21, e22⟩ := idx_facts t
  unfold iblk0
  rw [View.read_apply]
  show (V c main_arg3 : S64x64.Idx → EReal) _ = (V c main_arg3 : S64x64.Idx → EReal) _
  refine congrArg _ (funext fun ax => Fin.ext ?_)
  match ax with
  | ⟨0, _⟩ => show win0_3.index t (0 : Fin 2) * 64 + 1 * a.val = a.val; omega
  | ⟨1, _⟩ => show win0_3.index t (1 : Fin 2) * 64 + 1 * k.val = k.val; omega

/-- Window 4's block is its whole array at every point. -/
theorem whole_4 (c : Dev nD) (t : Fin cfg0.N) (a : Fin 64) (k : Fin 64) :
    (iblk0 V c 4 t : Vec Ideal S64x64 .f32) (ix2 a k) = (V c main_arg4 : S64x64.Idx → EReal) (ix2 a k) := by
  obtain ⟨e0, e1, e2, e3, e4, e5, e6, e7, e8, e9, e10, e11, e12, e13, e14, e15, e16, e17, e18, e19, e20, e21, e22⟩ := idx_facts t
  unfold iblk0
  rw [View.read_apply]
  show (V c main_arg4 : S64x64.Idx → EReal) _ = (V c main_arg4 : S64x64.Idx → EReal) _
  refine congrArg _ (funext fun ax => Fin.ext ?_)
  match ax with
  | ⟨0, _⟩ => show win0_4.index t (0 : Fin 2) * 64 + 1 * a.val = a.val; omega
  | ⟨1, _⟩ => show win0_4.index t (1 : Fin 2) * 64 + 1 * k.val = k.val; omega

/-- Window 5's block is its whole array at every point. -/
theorem whole_5 (c : Dev nD) (t : Fin cfg0.N) (a : Fin 1) (k : Fin 64) :
    (iblk0 V c 5 t : Vec Ideal S1x64 .f32) (ix2 a k) = (V c main_v21 : S1x64.Idx → EReal) (ix2 a k) := by
  obtain ⟨e0, e1, e2, e3, e4, e5, e6, e7, e8, e9, e10, e11, e12, e13, e14, e15, e16, e17, e18, e19, e20, e21, e22⟩ := idx_facts t
  unfold iblk0
  rw [View.read_apply]
  show (V c main_v21 : S1x64.Idx → EReal) _ = (V c main_v21 : S1x64.Idx → EReal) _
  refine congrArg _ (funext fun ax => Fin.ext ?_)
  match ax with
  | ⟨0, _⟩ => show win0_5.index t (0 : Fin 2) * 1 + 1 * a.val = a.val; omega
  | ⟨1, _⟩ => show win0_5.index t (1 : Fin 2) * 64 + 1 * k.val = k.val; omega

/-- Window 6's block is its whole array at every point. -/
theorem whole_6 (c : Dev nD) (t : Fin cfg0.N) (a : Fin 1) (k : Fin 64) :
    (iblk0 V c 6 t : Vec Ideal S1x64 .f32) (ix2 a k) = (V c main_v22 : S1x64.Idx → EReal) (ix2 a k) := by
  obtain ⟨e0, e1, e2, e3, e4, e5, e6, e7, e8, e9, e10, e11, e12, e13, e14, e15, e16, e17, e18, e19, e20, e21, e22⟩ := idx_facts t
  unfold iblk0
  rw [View.read_apply]
  show (V c main_v22 : S1x64.Idx → EReal) _ = (V c main_v22 : S1x64.Idx → EReal) _
  refine congrArg _ (funext fun ax => Fin.ext ?_)
  match ax with
  | ⟨0, _⟩ => show win0_6.index t (0 : Fin 2) * 1 + 1 * a.val = a.val; omega
  | ⟨1, _⟩ => show win0_6.index t (1 : Fin 2) * 64 + 1 * k.val = k.val; omega

/-- Window 7's block is its whole array at every point. -/
theorem whole_7 (c : Dev nD) (t : Fin cfg0.N) (a : Fin 1) (k : Fin 64) :
    (iblk0 V c 7 t : Vec Ideal S1x64 .f32) (ix2 a k) = (V c main_v23 : S1x64.Idx → EReal) (ix2 a k) := by
  obtain ⟨e0, e1, e2, e3, e4, e5, e6, e7, e8, e9, e10, e11, e12, e13, e14, e15, e16, e17, e18, e19, e20, e21, e22⟩ := idx_facts t
  unfold iblk0
  rw [View.read_apply]
  show (V c main_v23 : S1x64.Idx → EReal) _ = (V c main_v23 : S1x64.Idx → EReal) _
  refine congrArg _ (funext fun ax => Fin.ext ?_)
  match ax with
  | ⟨0, _⟩ => show win0_7.index t (0 : Fin 2) * 1 + 1 * a.val = a.val; omega
  | ⟨1, _⟩ => show win0_7.index t (1 : Fin 2) * 64 + 1 * k.val = k.val; omega

/-- Window 8's block is its whole array at every point. -/
theorem whole_8 (c : Dev nD) (t : Fin cfg0.N) (a : Fin 1) (k : Fin 64) :
    (iblk0 V c 8 t : Vec Ideal S1x64 .f32) (ix2 a k) = (V c main_v24 : S1x64.Idx → EReal) (ix2 a k) := by
  obtain ⟨e0, e1, e2, e3, e4, e5, e6, e7, e8, e9, e10, e11, e12, e13, e14, e15, e16, e17, e18, e19, e20, e21, e22⟩ := idx_facts t
  unfold iblk0
  rw [View.read_apply]
  show (V c main_v24 : S1x64.Idx → EReal) _ = (V c main_v24 : S1x64.Idx → EReal) _
  refine congrArg _ (funext fun ax => Fin.ext ?_)
  match ax with
  | ⟨0, _⟩ => show win0_8.index t (0 : Fin 2) * 1 + 1 * a.val = a.val; omega
  | ⟨1, _⟩ => show win0_8.index t (1 : Fin 2) * 64 + 1 * k.val = k.val; omega

/-- Window 9's block is its whole array at every point. -/
theorem whole_9 (c : Dev nD) (t : Fin cfg0.N) (a : Fin 1) (k : Fin 64) :
    (iblk0 V c 9 t : Vec Ideal S1x64 .f32) (ix2 a k) = (V c main_v25 : S1x64.Idx → EReal) (ix2 a k) := by
  obtain ⟨e0, e1, e2, e3, e4, e5, e6, e7, e8, e9, e10, e11, e12, e13, e14, e15, e16, e17, e18, e19, e20, e21, e22⟩ := idx_facts t
  unfold iblk0
  rw [View.read_apply]
  show (V c main_v25 : S1x64.Idx → EReal) _ = (V c main_v25 : S1x64.Idx → EReal) _
  refine congrArg _ (funext fun ax => Fin.ext ?_)
  match ax with
  | ⟨0, _⟩ => show win0_9.index t (0 : Fin 2) * 1 + 1 * a.val = a.val; omega
  | ⟨1, _⟩ => show win0_9.index t (1 : Fin 2) * 64 + 1 * k.val = k.val; omega

/-- The row and the column of an index of the result array. -/
def rowOf (i : S100000x64.Idx) : Fin 100000 := ⟨(i 0).val, (i 0).isLt⟩
def colOf (i : S100000x64.Idx) : Fin 64 := ⟨(i 1).val, (i 1).isLt⟩

/-- What the layer writes: its function of the arrays it is entered with, index by index. -/
def G (c : Dev nD) : S100000x64.Idx → EReal := fun i =>
  Spec.layerB (fun a k => (V c main_arg0 : S100000x64.Idx → EReal) (ix2 a k))
      (Spec.hnMul (fun a k => (V c main_v20 : S100000x64.Idx → EReal) (ix2 a k)) (fun a => (V c main_v8 : S100000x1.Idx → EReal) (ix2 a (0 : Fin 1))))
      (fun a k => (V c main_arg3 : S64x64.Idx → EReal) (ix2 a k)) (fun a k => (V c main_arg4 : S64x64.Idx → EReal) (ix2 a k)) (fun a => (V c main_v21 : S1x64.Idx → EReal) (ix2 (0 : Fin 1) a))
      (fun a => (V c main_v22 : S1x64.Idx → EReal) (ix2 (0 : Fin 1) a)) (fun a => (V c main_v23 : S1x64.Idx → EReal) (ix2 (0 : Fin 1) a)) (fun a => (V c main_v24 : S1x64.Idx → EReal) (ix2 (0 : Fin 1) a)) (fun a => (V c main_v25 : S1x64.Idx → EReal) (ix2 (0 : Fin 1) a)) (rowOf i) (colOf i)

/-- Point t's body result at (p, q) is the layer's function at row 4000·t + p. -/
theorem point_apply (c : Dev nD) (t : Fin cfg0.N) (p : Fin 4000) (q : Fin 64) (a : Fin 100000) (ha : a.val = 4000 * t.val + p.val) :
    (k0_pay1 (k0_pay2 (iblk0 V c 0 t) (iblk0 V c 1 t) (iblk0 V c 2 t) (iblk0 V c 3 t) (iblk0 V c 4 t) (iblk0 V c 5 t)) (k0_pay3 (iblk0 V c 6 t)) (k0_pay4 (iblk0 V c 7 t)) (k0_pay5 (iblk0 V c 8 t)) (iblk0 V c 9 t) : Vec Ideal S4000x64 .f32) (ix2 p q)
      = Spec.layerB (fun a k => (V c main_arg0 : S100000x64.Idx → EReal) (ix2 a k))
      (Spec.hnMul (fun a k => (V c main_v20 : S100000x64.Idx → EReal) (ix2 a k)) (fun a => (V c main_v8 : S100000x1.Idx → EReal) (ix2 a (0 : Fin 1))))
      (fun a k => (V c main_arg3 : S64x64.Idx → EReal) (ix2 a k)) (fun a k => (V c main_arg4 : S64x64.Idx → EReal) (ix2 a k)) (fun a => (V c main_v21 : S1x64.Idx → EReal) (ix2 (0 : Fin 1) a))
      (fun a => (V c main_v22 : S1x64.Idx → EReal) (ix2 (0 : Fin 1) a)) (fun a => (V c main_v23 : S1x64.Idx → EReal) (ix2 (0 : Fin 1) a)) (fun a => (V c main_v24 : S1x64.Idx → EReal) (ix2 (0 : Fin 1) a)) (fun a => (V c main_v25 : S1x64.Idx → EReal) (ix2 (0 : Fin 1) a)) a q := by
  rw [Block.bn_tail, Block.core_apply]
  rw [Block.blockLin_eq (iblk0 V c 0 t) (iblk0 V c 1 t) (iblk0 V c 2 t) (iblk0 V c 3 t) (iblk0 V c 4 t) (iblk0 V c 5 t) p
    (fun a k => (V c main_arg0 : S100000x64.Idx → EReal) (ix2 a k)) (Spec.hnMul (fun a k => (V c main_v20 : S100000x64.Idx → EReal) (ix2 a k)) (fun a => (V c main_v8 : S100000x1.Idx → EReal) (ix2 a (0 : Fin 1))))
    (fun a k => (V c main_arg3 : S64x64.Idx → EReal) (ix2 a k)) (fun a k => (V c main_arg4 : S64x64.Idx → EReal) (ix2 a k)) (fun a => (V c main_v21 : S1x64.Idx → EReal) (ix2 (0 : Fin 1) a)) a
    (fun k => rows_0 V c t p k a ha) (fun k => by rw [rows_1 V c t p k a ha, rows_2 V c t p a ha]; rfl)
    (fun a' k => whole_3 V c t a' k) (fun a' k => whole_4 V c t a' k) (fun a' => whole_5 V c t 0 a')]
  unfold Spec.layerB Spec.layerN
  simp only [whole_6 V c t, whole_7 V c t, whole_8 V c t, whole_9 V c t]

/-- What point t writes back is block t of the layer's function. -/
theorem flushed_eq (c : Dev nD) (t : Fin cfg0.N) :
    (dat0 V c).flushed 10 t = ((cfg0.win 10).blk t).view.read (Elt Ideal) (G V c) := by
  show (cfg0.win 10).cut (grid0.coords t) ((dat0 V c).after 10 t) = _
  rw [after0_10]
  unfold out0_10
  rw [View.canon_unit_zero hz]
  simp only [View.ld_unit_zero (S := S4000x64) hz, View.ld_unit_zero (S := S4000x1) hz, View.ld_unit_zero (S := S64x64) hz, View.ld_unit_zero (S := S1x64) hz]
  obtain ⟨e0, e1, e2, e3, e4, e5, e6, e7, e8, e9, e10, e11, e12, e13, e14, e15, e16, e17, e18, e19, e20, e21, e22⟩ := idx_facts t
  funext j
  obtain ⟨p, q, rfl⟩ : ∃ (p : Fin 4000) (q : Fin 64), j = ix2 p q := ⟨j 0, j 1, eq_ix2 j⟩
  rw [View.read_apply]
  have hr : rowOf (((cfg0.win 10).blk t).view.emb (ix2 p q)) = ⟨4000 * t.val + p.val, by omega⟩ :=
    Fin.ext (by show win0_10.index t (0 : Fin 2) * 4000 + 1 * p.val = 4000 * t.val + p.val; omega)
  have hc : colOf (((cfg0.win 10).blk t).view.emb (ix2 p q)) = q :=
    Fin.ext (by show win0_10.index t (1 : Fin 2) * 64 + 1 * q.val = q.val; omega)
  unfold G
  rw [hr, hc]
  exact point_apply V c t p q ⟨4000 * t.val + p.val, by omega⟩ rfl

/-- An index of the array is in point t's block iff each coordinate is in the block's range on its axis. -/
theorem mem_blk (t : Fin cfg0.N) (i : S100000x64.Idx) :
    i ∈ ((cfg0.win 10).blk t).view.set ↔ ∀ a : Fin 2, win0_10.index t a * S4000x64.size a ≤ (i a).val ∧ (i a).val < win0_10.index t a * S4000x64.size a + S4000x64.size a := by
  show i ∈ ((View.whole main_v26).slice (win0_10.rect t)).set ↔ _
  rw [View.set_slice_whole, Rect.mem_set_unit]
  exact Iff.rfl

/-- Every block index of axis 0 is some point's. -/
theorem idx_onto : ∀ q0 : Fin 25, ∃ t : Fin cfg0.N, win0_10.index t = ![q0.val, 0] :=
  (by decide +kernel : ∀ q0 : Fin 25, ∃ t : Fin grid0.N, win0_10.index t = ![q0.val, 0])

/-- The 25 blocks cover the array: row r lies in block r / 4000. -/
theorem cover (i : S100000x64.Idx) : ∃ t : Fin cfg0.N, (cfg0.win 10).flush t = true ∧ i ∈ ((cfg0.win 10).blk t).view.set := by
  have hi0 : (i 0).val < 100000 := (i 0).isLt
  have hi1 : (i 1).val < 64 := (i 1).isLt
  obtain ⟨t, ht⟩ := idx_onto ⟨(i 0).val / 4000, by omega⟩
  have q0 : win0_10.index t (0 : Fin 2) = (i 0).val / 4000 := congrFun ht 0
  have q1 : win0_10.index t (1 : Fin 2) = 0 := congrFun ht 1
  refine ⟨t, flush0_10 t, ?_⟩
  rw [mem_blk]
  intro a
  match a with
  | ⟨0, _⟩ => show win0_10.index t (0 : Fin 2) * 4000 ≤ (i 0).val ∧ (i 0).val < win0_10.index t (0 : Fin 2) * 4000 + 4000; omega
  | ⟨1, _⟩ => show win0_10.index t (1 : Fin 2) * 64 ≤ (i 1).val ∧ (i 1).val < win0_10.index t (1 : Fin 2) * 64 + 64; omega

/-- The result array after the layer's 25 points is the layer's function of the arrays it was entered with. -/
theorem final (c : Dev nD) : (dat0 V c).arrAt 10 cfg0.N = G V c :=
  (dat0 V c).arrAt_eq_of_cover 10 (G V c) (fun t _ => flushed_eq V c t) (cover)

/-- The layer's function with the arrays it is entered with named. -/
theorem G_eq (c : Dev nD) (X0 : S100000x64.Idx → EReal) (X1 : S100000x64.Idx → EReal) (X2 : S100000x1.Idx → EReal) (X3 : S64x64.Idx → EReal) (X4 : S64x64.Idx → EReal) (X5 : S1x64.Idx → EReal) (X6 : S1x64.Idx → EReal) (X7 : S1x64.Idx → EReal) (X8 : S1x64.Idx → EReal) (X9 : S1x64.Idx → EReal)
    (h0 : (V c main_arg0 : S100000x64.Idx → EReal) = X0) (h1 : (V c main_v20 : S100000x64.Idx → EReal) = X1) (h2 : (V c main_v8 : S100000x1.Idx → EReal) = X2) (h3 : (V c main_arg3 : S64x64.Idx → EReal) = X3) (h4 : (V c main_arg4 : S64x64.Idx → EReal) = X4) (h5 : (V c main_v21 : S1x64.Idx → EReal) = X5) (h6 : (V c main_v22 : S1x64.Idx → EReal) = X6) (h7 : (V c main_v23 : S1x64.Idx → EReal) = X7) (h8 : (V c main_v24 : S1x64.Idx → EReal) = X8) (h9 : (V c main_v25 : S1x64.Idx → EReal) = X9) :
    G V c = fun i => Spec.layerB (fun a k => X0 (ix2 a k)) (Spec.hnMul (fun a k => X1 (ix2 a k)) (fun a => X2 (ix2 a (0 : Fin 1))))
      (fun a k => X3 (ix2 a k)) (fun a k => X4 (ix2 a k)) (fun a => X5 (ix2 (0 : Fin 1) a)) (fun a => X6 (ix2 (0 : Fin 1) a)) (fun a => X7 (ix2 (0 : Fin 1) a)) (fun a => X8 (ix2 (0 : Fin 1) a)) (fun a => X9 (ix2 (0 : Fin 1) a)) (rowOf i) (colOf i) := by
  unfold G
  rw [h0, h1, h2, h3, h4, h5, h6, h7, h8, h9]

end Cert.Sage.Layer0

end
-- ==== Proof.Layer1.lean ====
/-
  Layer 2 of the three: what its grid of 25 points writes back, as ONE function of the arrays it is entered with.

  Point t stages rows 4000·t … 4000·t + 3999 of the node features, of the neighbours' sums and of the reciprocal-degree
  column, and the whole of the weights and per-channel rows; its body's result is those rows of the layer's function;
  the 25 blocks tile the 100000 rows, so the array ends holding the layer's function everywhere.
-/
import proofs.«153891_j51084341018874_2_alg».proof.Proof.Gen.KernelIdeal.Frame
import proofs.«153891_j51084341018874_2_alg».proof.Proof.Core
import Idealize.ShloMosaic.Lib.Pipeline.Value

set_option maxRecDepth 16384

noncomputable section

namespace Cert.Sage.Layer1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: the three row-blocked windows and the output sit at block t
    of axis 0, the others at block 0. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = t.val
    ∧ win1_10.index t (1 : Fin 2) = 0
    ∧ t.val < 25 :=
  (by decide +kernel : ∀ t : Fin grid1.N, _)

/-- Window 0's block at point t holds rows 4000·t … 4000·t + 3999 of its array. -/
theorem rows_0 (c : Dev nD) (t : Fin cfg1.N) (p : Fin 4000) (k : Fin 64) (a : Fin 100000) (ha : a.val = 4000 * t.val + p.val) :
    (iblk1 V c 0 t : Vec Ideal S4000x64 .f32) (ix2 p k) = (V c main_v26 : S100000x64.Idx → EReal) (ix2 a k) := by
  obtain ⟨e0, e1, e2, e3, e4, e5, e6, e7, e8, e9, e10, e11, e12, e13, e14, e15, e16, e17, e18, e19, e20, e21, e22⟩ := idx_facts t
  unfold iblk1
  rw [View.read_apply]
  show (V c main_v26 : S100000x64.Idx → EReal) _ = (V c main_v26 : S100000x64.Idx → EReal) _
  refine congrArg _ (funext fun ax => Fin.ext ?_)
  match ax with
  | ⟨0, _⟩ => show win1_0.index t (0 : Fin 2) * 4000 + 1 * p.val = a.val; omega
  | ⟨1, _⟩ => show win1_0.index t (1 : Fin 2) * 64 + 1 * k.val = k.val; omega

/-- Window 1's block at point t holds rows 4000·t … 4000·t + 3999 of its array. -/
theorem rows_1 (c : Dev nD) (t : Fin cfg1.N) (p : Fin 4000) (k : Fin 64) (a : Fin 100000) (ha : a.val = 4000 * t.val + p.val) :
    (iblk1 V c 1 t : Vec Ideal S4000x64 .f32) (ix2 p k) = (V c main_v38 : S100000x64.Idx → EReal) (ix2 a k) := by
  obtain ⟨e0, e1, e2, e3, e4, e5, e6, e7, e8, e9, e10, e11, e12, e13, e14, e15, e16, e17, e18, e19, e20, e21, e22⟩ := idx_facts t
  unfold iblk1
  rw [View.read_apply]
  show (V c main_v38 : S100000x64.Idx → EReal) _ = (V c main_v38 : S100000x64.Idx → EReal) _
  refine congrArg _ (funext fun ax => Fin.ext ?_)
  match ax with
  | ⟨0, _⟩ => show win1_1.index t (0 : Fin 2) * 4000 + 1 * p.val = a.val; omega
  | ⟨1, _⟩ => show win1_1.index t (1 : Fin 2) * 64 + 1 * k.val = k.val; omega

/-- Window 2's block at point t holds rows 4000·t … of the one-column array. -/
theorem rows_2 (c : Dev nD) (t : Fin cfg1.N) (p : Fin 4000) (a : Fin 100000) (ha : a.val = 4000 * t.val + p.val) :
    (iblk1 V c 2 t : Vec Ideal S4000x1 .f32) (ix2 p (0 : Fin 1)) = (V c main_v8 : S100000x1.Idx → EReal) (ix2 a (0 : Fin 1)) := by
  obtain ⟨e0, e1, e2, e3, e4, e5, e6, e7, e8, e9, e10, e11, e12, e13, e14, e15, e16, e17, e18, e19, e20, e21, e22⟩ := idx_facts t
  unfold iblk1
  rw [View.read_apply]
  show (V c main_v8 : S100000x1.Idx → EReal) _ = (V c main_v8 : S100000x1.Idx → EReal) _
  refine congrArg _ (funext fun ax => Fin.ext ?_)
  match ax with
  | ⟨0, _⟩ => show win1_2.index t (0 : Fin 2) * 4000 + 1 * p.val = a.val; omega
  | ⟨1, _⟩ => show win1_2.index t (1 : Fin 2) * 1 + 1 * 0 = 0; omega

/-- Window 3's block is its whole array at every point. -/
theorem whole_3 (c : Dev nD) (t : Fin cfg1.N) (a : Fin 64) (k : Fin 64) :
    (iblk1 V c 3 t : Vec Ideal S64x64 .f32) (ix2 a k) = (V c main_arg10 : S64x64.Idx → EReal) (ix2 a k) := by
  obtain ⟨e0, e1, e2, e3, e4, e5, e6, e7, e8, e9, e10, e11, e12, e13, e14, e15, e16, e17, e18, e19, e20, e21, e22⟩ := idx_facts t
  unfold iblk1
  rw [View.read_apply]
  show (V c main_arg10 : S64x64.Idx → EReal) _ = (V c main_arg10 : S64x64.Idx → EReal) _
  refine congrArg _ (funext fun ax => Fin.ext ?_)
  match ax with
  | ⟨0, _⟩ => show win1_3.index t (0 : Fin 2) * 64 + 1 * a.val = a.val; omega
  | ⟨1, _⟩ => show win1_3.index t (1 : Fin 2) * 64 + 1 * k.val = k.val; omega

/-- Window 4's block is its whole array at every point. -/
theorem whole_4 (c : Dev nD) (t : Fin cfg1.N) (a : Fin 64) (k : Fin 64) :
    (iblk1 V c 4 t : Vec Ideal S64x64 .f32) (ix2 a k) = (V c main_arg11 : S64x64.Idx → EReal) (ix2 a k) := by
  obtain ⟨e0, e1, e2, e3, e4, e5, e6, e7, e8, e9, e10, e11, e12, e13, e14, e15, e16, e17, e18, e19, e20, e21, e22⟩ := idx_facts t
  unfold iblk1
  rw [View.read_apply]
  show (V c main_arg11 : S64x64.Idx → EReal) _ = (V c main_arg11 : S64x64.Idx → EReal) _
  refine congrArg _ (funext fun ax => Fin.ext ?_)
  match ax with
  | ⟨0, _⟩ => show win1_4.index t (0 : Fin 2) * 64 + 1 * a.val = a.val; omega
  | ⟨1, _⟩ => show win1_4.index t (1 : Fin 2) * 64 + 1 * k.val = k.val; omega

/-- Window 5's block is its whole array at every point. -/
theorem whole_5 (c : Dev nD) (t : Fin cfg1.N) (a : Fin 1) (k : Fin 64) :
    (iblk1 V c 5 t : Vec Ideal S1x64 .f32) (ix2 a k) = (V c main_v39 : S1x64.Idx → EReal) (ix2 a k) := by
  obtain ⟨e0, e1, e2, e3, e4, e5, e6, e7, e8, e9, e10, e11, e12, e13, e14, e15, e16, e17, e18, e19, e20, e21, e22⟩ := idx_facts t
  unfold iblk1
  rw [View.read_apply]
  show (V c main_v39 : S1x64.Idx → EReal) _ = (V c main_v39 : S1x64.Idx → EReal) _
  refine congrArg _ (funext fun ax => Fin.ext ?_)
  match ax with
  | ⟨0, _⟩ => show win1_5.index t (0 : Fin 2) * 1 + 1 * a.val = a.val; omega
  | ⟨1, _⟩ => show win1_5.index t (1 : Fin 2) * 64 + 1 * k.val = k.val; omega

/-- Window 6's block is its whole array at every point. -/
theorem whole_6 (c : Dev nD) (t : Fin cfg1.N) (a : Fin 1) (k : Fin 64) :
    (iblk1 V c 6 t : Vec Ideal S1x64 .f32) (ix2 a k) = (V c main_v40 : S1x64.Idx → EReal) (ix2 a k) := by
  obtain ⟨e0, e1, e2, e3, e4, e5, e6, e7, e8, e9, e10, e11, e12, e13, e14, e15, e16, e17, e18, e19, e20, e21, e22⟩ := idx_facts t
  unfold iblk1
  rw [View.read_apply]
  show (V c main_v40 : S1x64.Idx → EReal) _ = (V c main_v40 : S1x64.Idx → EReal) _
  refine congrArg _ (funext fun ax => Fin.ext ?_)
  match ax with
  | ⟨0, _⟩ => show win1_6.index t (0 : Fin 2) * 1 + 1 * a.val = a.val; omega
  | ⟨1, _⟩ => show win1_6.index t (1 : Fin 2) * 64 + 1 * k.val = k.val; omega

/-- Window 7's block is its whole array at every point. -/
theorem whole_7 (c : Dev nD) (t : Fin cfg1.N) (a : Fin 1) (k : Fin 64) :
    (iblk1 V c 7 t : Vec Ideal S1x64 .f32) (ix2 a k) = (V c main_v41 : S1x64.Idx → EReal) (ix2 a k) := by
  obtain ⟨e0, e1, e2, e3, e4, e5, e6, e7, e8, e9, e10, e11, e12, e13, e14, e15, e16, e17, e18, e19, e20, e21, e22⟩ := idx_facts t
  unfold iblk1
  rw [View.read_apply]
  show (V c main_v41 : S1x64.Idx → EReal) _ = (V c main_v41 : S1x64.Idx → EReal) _
  refine congrArg _ (funext fun ax => Fin.ext ?_)
  match ax with
  | ⟨0, _⟩ => show win1_7.index t (0 : Fin 2) * 1 + 1 * a.val = a.val; omega
  | ⟨1, _⟩ => show win1_7.index t (1 : Fin 2) * 64 + 1 * k.val = k.val; omega

/-- Window 8's block is its whole array at every point. -/
theorem whole_8 (c : Dev nD) (t : Fin cfg1.N) (a : Fin 1) (k : Fin 64) :
    (iblk1 V c 8 t : Vec Ideal S1x64 .f32) (ix2 a k) = (V c main_v42 : S1x64.Idx → EReal) (ix2 a k) := by
  obtain ⟨e0, e1, e2, e3, e4, e5, e6, e7, e8, e9, e10, e11, e12, e13, e14, e15, e16, e17, e18, e19, e20, e21, e22⟩ := idx_facts t
  unfold iblk1
  rw [View.read_apply]
  show (V c main_v42 : S1x64.Idx → EReal) _ = (V c main_v42 : S1x64.Idx → EReal) _
  refine congrArg _ (funext fun ax => Fin.ext ?_)
  match ax with
  | ⟨0, _⟩ => show win1_8.index t (0 : Fin 2) * 1 + 1 * a.val = a.val; omega
  | ⟨1, _⟩ => show win1_8.index t (1 : Fin 2) * 64 + 1 * k.val = k.val; omega

/-- Window 9's block is its whole array at every point. -/
theorem whole_9 (c : Dev nD) (t : Fin cfg1.N) (a : Fin 1) (k : Fin 64) :
    (iblk1 V c 9 t : Vec Ideal S1x64 .f32) (ix2 a k) = (V c main_v43 : S1x64.Idx → EReal) (ix2 a k) := by
  obtain ⟨e0, e1, e2, e3, e4, e5, e6, e7, e8, e9, e10, e11, e12, e13, e14, e15, e16, e17, e18, e19, e20, e21, e22⟩ := idx_facts t
  unfold iblk1
  rw [View.read_apply]
  show (V c main_v43 : S1x64.Idx → EReal) _ = (V c main_v43 : S1x64.Idx → EReal) _
  refine congrArg _ (funext fun ax => Fin.ext ?_)
  match ax with
  | ⟨0, _⟩ => show win1_9.index t (0 : Fin 2) * 1 + 1 * a.val = a.val; omega
  | ⟨1, _⟩ => show win1_9.index t (1 : Fin 2) * 64 + 1 * k.val = k.val; omega

/-- The row and the column of an index of the result array. -/
def rowOf (i : S100000x64.Idx) : Fin 100000 := ⟨(i 0).val, (i 0).isLt⟩
def colOf (i : S100000x64.Idx) : Fin 64 := ⟨(i 1).val, (i 1).isLt⟩

/-- What the layer writes: its function of the arrays it is entered with, index by index. -/
def G (c : Dev nD) : S100000x64.Idx → EReal := fun i =>
  Spec.layerB (fun a k => (V c main_v26 : S100000x64.Idx → EReal) (ix2 a k))
      (Spec.hnMul (fun a k => (V c main_v38 : S100000x64.Idx → EReal) (ix2 a k)) (fun a => (V c main_v8 : S100000x1.Idx → EReal) (ix2 a (0 : Fin 1))))
      (fun a k => (V c main_arg10 : S64x64.Idx → EReal) (ix2 a k)) (fun a k => (V c main_arg11 : S64x64.Idx → EReal) (ix2 a k)) (fun a => (V c main_v39 : S1x64.Idx → EReal) (ix2 (0 : Fin 1) a))
      (fun a => (V c main_v40 : S1x64.Idx → EReal) (ix2 (0 : Fin 1) a)) (fun a => (V c main_v41 : S1x64.Idx → EReal) (ix2 (0 : Fin 1) a)) (fun a => (V c main_v42 : S1x64.Idx → EReal) (ix2 (0 : Fin 1) a)) (fun a => (V c main_v43 : S1x64.Idx → EReal) (ix2 (0 : Fin 1) a)) (rowOf i) (colOf i)

/-- Point t's body result at (p, q) is the layer's function at row 4000·t + p. -/
theorem point_apply (c : Dev nD) (t : Fin cfg1.N) (p : Fin 4000) (q : Fin 64) (a : Fin 100000) (ha : a.val = 4000 * t.val + p.val) :
    (k1_pay1 (k1_pay2 (iblk1 V c 0 t) (iblk1 V c 1 t) (iblk1 V c 2 t) (iblk1 V c 3 t) (iblk1 V c 4 t) (iblk1 V c 5 t)) (k1_pay3 (iblk1 V c 6 t)) (k1_pay4 (iblk1 V c 7 t)) (k1_pay5 (iblk1 V c 8 t)) (iblk1 V c 9 t) : Vec Ideal S4000x64 .f32) (ix2 p q)
      = Spec.layerB (fun a k => (V c main_v26 : S100000x64.Idx → EReal) (ix2 a k))
      (Spec.hnMul (fun a k => (V c main_v38 : S100000x64.Idx → EReal) (ix2 a k)) (fun a => (V c main_v8 : S100000x1.Idx → EReal) (ix2 a (0 : Fin 1))))
      (fun a k => (V c main_arg10 : S64x64.Idx → EReal) (ix2 a k)) (fun a k => (V c main_arg11 : S64x64.Idx → EReal) (ix2 a k)) (fun a => (V c main_v39 : S1x64.Idx → EReal) (ix2 (0 : Fin 1) a))
      (fun a => (V c main_v40 : S1x64.Idx → EReal) (ix2 (0 : Fin 1) a)) (fun a => (V c main_v41 : S1x64.Idx → EReal) (ix2 (0 : Fin 1) a)) (fun a => (V c main_v42 : S1x64.Idx → EReal) (ix2 (0 : Fin 1) a)) (fun a => (V c main_v43 : S1x64.Idx → EReal) (ix2 (0 : Fin 1) a)) a q := by
  rw [Block.bn_tail1, Block.core_apply1]
  rw [Block.blockLin_eq (iblk1 V c 0 t) (iblk1 V c 1 t) (iblk1 V c 2 t) (iblk1 V c 3 t) (iblk1 V c 4 t) (iblk1 V c 5 t) p
    (fun a k => (V c main_v26 : S100000x64.Idx → EReal) (ix2 a k)) (Spec.hnMul (fun a k => (V c main_v38 : S100000x64.Idx → EReal) (ix2 a k)) (fun a => (V c main_v8 : S100000x1.Idx → EReal) (ix2 a (0 : Fin 1))))
    (fun a k => (V c main_arg10 : S64x64.Idx → EReal) (ix2 a k)) (fun a k => (V c main_arg11 : S64x64.Idx → EReal) (ix2 a k)) (fun a => (V c main_v39 : S1x64.Idx → EReal) (ix2 (0 : Fin 1) a)) a
    (fun k => rows_0 V c t p k a ha) (fun k => by rw [rows_1 V c t p k a ha, rows_2 V c t p a ha]; rfl)
    (fun a' k => whole_3 V c t a' k) (fun a' k => whole_4 V c t a' k) (fun a' => whole_5 V c t 0 a')]
  unfold Spec.layerB Spec.layerN
  simp only [whole_6 V c t, whole_7 V c t, whole_8 V c t, whole_9 V c t]

/-- What point t writes back is block t of the layer's function. -/
theorem flushed_eq (c : Dev nD) (t : Fin cfg1.N) :
    (dat1 V c).flushed 10 t = ((cfg1.win 10).blk t).view.read (Elt Ideal) (G V c) := by
  show (cfg1.win 10).cut (grid1.coords t) ((dat1 V c).after 10 t) = _
  rw [after1_10]
  unfold out1_10
  rw [View.canon_unit_zero hz]
  simp only [View.ld_unit_zero (S := S4000x64) hz, View.ld_unit_zero (S := S4000x1) hz, View.ld_unit_zero (S := S64x64) hz, View.ld_unit_zero (S := S1x64) hz]
  obtain ⟨e0, e1, e2, e3, e4, e5, e6, e7, e8, e9, e10, e11, e12, e13, e14, e15, e16, e17, e18, e19, e20, e21, e22⟩ := idx_facts t
  funext j
  obtain ⟨p, q, rfl⟩ : ∃ (p : Fin 4000) (q : Fin 64), j = ix2 p q := ⟨j 0, j 1, eq_ix2 j⟩
  rw [View.read_apply]
  have hr : rowOf (((cfg1.win 10).blk t).view.emb (ix2 p q)) = ⟨4000 * t.val + p.val, by omega⟩ :=
    Fin.ext (by show win1_10.index t (0 : Fin 2) * 4000 + 1 * p.val = 4000 * t.val + p.val; omega)
  have hc : colOf (((cfg1.win 10).blk t).view.emb (ix2 p q)) = q :=
    Fin.ext (by show win1_10.index t (1 : Fin 2) * 64 + 1 * q.val = q.val; omega)
  unfold G
  rw [hr, hc]
  exact point_apply V c t p q ⟨4000 * t.val + p.val, by omega⟩ rfl

/-- An index of the array is in point t's block iff each coordinate is in the block's range on its axis. -/
theorem mem_blk (t : Fin cfg1.N) (i : S100000x64.Idx) :
    i ∈ ((cfg1.win 10).blk t).view.set ↔ ∀ a : Fin 2, win1_10.index t a * S4000x64.size a ≤ (i a).val ∧ (i a).val < win1_10.index t a * S4000x64.size a + S4000x64.size a := by
  show i ∈ ((View.whole main_v44).slice (win1_10.rect t)).set ↔ _
  rw [View.set_slice_whole, Rect.mem_set_unit]
  exact Iff.rfl

/-- Every block index of axis 0 is some point's. -/
theorem idx_onto : ∀ q0 : Fin 25, ∃ t : Fin cfg1.N, win1_10.index t = ![q0.val, 0] :=
  (by decide +kernel : ∀ q0 : Fin 25, ∃ t : Fin grid1.N, win1_10.index t = ![q0.val, 0])

/-- The 25 blocks cover the array: row r lies in block r / 4000. -/
theorem cover (i : S100000x64.Idx) : ∃ t : Fin cfg1.N, (cfg1.win 10).flush t = true ∧ i ∈ ((cfg1.win 10).blk t).view.set := by
  have hi0 : (i 0).val < 100000 := (i 0).isLt
  have hi1 : (i 1).val < 64 := (i 1).isLt
  obtain ⟨t, ht⟩ := idx_onto ⟨(i 0).val / 4000, by omega⟩
  have q0 : win1_10.index t (0 : Fin 2) = (i 0).val / 4000 := congrFun ht 0
  have q1 : win1_10.index t (1 : Fin 2) = 0 := congrFun ht 1
  refine ⟨t, flush1_10 t, ?_⟩
  rw [mem_blk]
  intro a
  match a with
  | ⟨0, _⟩ => show win1_10.index t (0 : Fin 2) * 4000 ≤ (i 0).val ∧ (i 0).val < win1_10.index t (0 : Fin 2) * 4000 + 4000; omega
  | ⟨1, _⟩ => show win1_10.index t (1 : Fin 2) * 64 ≤ (i 1).val ∧ (i 1).val < win1_10.index t (1 : Fin 2) * 64 + 64; omega

/-- The result array after the layer's 25 points is the layer's function of the arrays it was entered with. -/
theorem final (c : Dev nD) : (dat1 V c).arrAt 10 cfg1.N = G V c :=
  (dat1 V c).arrAt_eq_of_cover 10 (G V c) (fun t _ => flushed_eq V c t) (cover)

/-- The layer's function with the arrays it is entered with named. -/
theorem G_eq (c : Dev nD) (X0 : S100000x64.Idx → EReal) (X1 : S100000x64.Idx → EReal) (X2 : S100000x1.Idx → EReal) (X3 : S64x64.Idx → EReal) (X4 : S64x64.Idx → EReal) (X5 : S1x64.Idx → EReal) (X6 : S1x64.Idx → EReal) (X7 : S1x64.Idx → EReal) (X8 : S1x64.Idx → EReal) (X9 : S1x64.Idx → EReal)
    (h0 : (V c main_v26 : S100000x64.Idx → EReal) = X0) (h1 : (V c main_v38 : S100000x64.Idx → EReal) = X1) (h2 : (V c main_v8 : S100000x1.Idx → EReal) = X2) (h3 : (V c main_arg10 : S64x64.Idx → EReal) = X3) (h4 : (V c main_arg11 : S64x64.Idx → EReal) = X4) (h5 : (V c main_v39 : S1x64.Idx → EReal) = X5) (h6 : (V c main_v40 : S1x64.Idx → EReal) = X6) (h7 : (V c main_v41 : S1x64.Idx → EReal) = X7) (h8 : (V c main_v42 : S1x64.Idx → EReal) = X8) (h9 : (V c main_v43 : S1x64.Idx → EReal) = X9) :
    G V c = fun i => Spec.layerB (fun a k => X0 (ix2 a k)) (Spec.hnMul (fun a k => X1 (ix2 a k)) (fun a => X2 (ix2 a (0 : Fin 1))))
      (fun a k => X3 (ix2 a k)) (fun a k => X4 (ix2 a k)) (fun a => X5 (ix2 (0 : Fin 1) a)) (fun a => X6 (ix2 (0 : Fin 1) a)) (fun a => X7 (ix2 (0 : Fin 1) a)) (fun a => X8 (ix2 (0 : Fin 1) a)) (fun a => X9 (ix2 (0 : Fin 1) a)) (rowOf i) (colOf i) := by
  unfold G
  rw [h0, h1, h2, h3, h4, h5, h6, h7, h8, h9]

end Cert.Sage.Layer1

end
-- ==== Proof.Layer2.lean ====
/-
  Layer 3 of the three: what its grid of 25 points writes back, as ONE function of the arrays it is entered with.

  Point t stages rows 4000·t … 4000·t + 3999 of the node features, of the neighbours' sums and of the reciprocal-degree
  column, and the whole of the weights and per-channel rows; its body's result is those rows of the layer's function;
  the 25 blocks tile the 100000 rows, so the array ends holding the layer's function everywhere.
-/
import proofs.«153891_j51084341018874_2_alg».proof.Proof.Gen.KernelIdeal.Frame
import proofs.«153891_j51084341018874_2_alg».proof.Proof.Core
import Idealize.ShloMosaic.Lib.Pipeline.Value

set_option maxRecDepth 16384

noncomputable section

namespace Cert.Sage.Layer2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: the three row-blocked windows and the output sit at block t
    of axis 0, the others at block 0. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0
    ∧ t.val < 25 :=
  (by decide +kernel : ∀ t : Fin grid2.N, _)

/-- Window 0's block at point t holds rows 4000·t … 4000·t + 3999 of its array. -/
theorem rows_0 (c : Dev nD) (t : Fin cfg2.N) (p : Fin 4000) (k : Fin 64) (a : Fin 100000) (ha : a.val = 4000 * t.val + p.val) :
    (iblk2 V c 0 t : Vec Ideal S4000x64 .f32) (ix2 p k) = (V c main_v44 : S100000x64.Idx → EReal) (ix2 a k) := by
  obtain ⟨e0, e1, e2, e3, e4, e5, e6, e7, e8, e9, e10, e11, e12, e13, e14⟩ := idx_facts t
  unfold iblk2
  rw [View.read_apply]
  show (V c main_v44 : S100000x64.Idx → EReal) _ = (V c main_v44 : S100000x64.Idx → EReal) _
  refine congrArg _ (funext fun ax => Fin.ext ?_)
  match ax with
  | ⟨0, _⟩ => show win2_0.index t (0 : Fin 2) * 4000 + 1 * p.val = a.val; omega
  | ⟨1, _⟩ => show win2_0.index t (1 : Fin 2) * 64 + 1 * k.val = k.val; omega

/-- Window 1's block at point t holds rows 4000·t … 4000·t + 3999 of its array. -/
theorem rows_1 (c : Dev nD) (t : Fin cfg2.N) (p : Fin 4000) (k : Fin 64) (a : Fin 100000) (ha : a.val = 4000 * t.val + p.val) :
    (iblk2 V c 1 t : Vec Ideal S4000x64 .f32) (ix2 p k) = (V c main_v56 : S100000x64.Idx → EReal) (ix2 a k) := by
  obtain ⟨e0, e1, e2, e3, e4, e5, e6, e7, e8, e9, e10, e11, e12, e13, e14⟩ := idx_facts t
  unfold iblk2
  rw [View.read_apply]
  show (V c main_v56 : S100000x64.Idx → EReal) _ = (V c main_v56 : S100000x64.Idx → EReal) _
  refine congrArg _ (funext fun ax => Fin.ext ?_)
  match ax with
  | ⟨0, _⟩ => show win2_1.index t (0 : Fin 2) * 4000 + 1 * p.val = a.val; omega
  | ⟨1, _⟩ => show win2_1.index t (1 : Fin 2) * 64 + 1 * k.val = k.val; omega

/-- Window 2's block at point t holds rows 4000·t … of the one-column array. -/
theorem rows_2 (c : Dev nD) (t : Fin cfg2.N) (p : Fin 4000) (a : Fin 100000) (ha : a.val = 4000 * t.val + p.val) :
    (iblk2 V c 2 t : Vec Ideal S4000x1 .f32) (ix2 p (0 : Fin 1)) = (V c main_v8 : S100000x1.Idx → EReal) (ix2 a (0 : Fin 1)) := by
  obtain ⟨e0, e1, e2, e3, e4, e5, e6, e7, e8, e9, e10, e11, e12, e13, e14⟩ := idx_facts t
  unfold iblk2
  rw [View.read_apply]
  show (V c main_v8 : S100000x1.Idx → EReal) _ = (V c main_v8 : S100000x1.Idx → EReal) _
  refine congrArg _ (funext fun ax => Fin.ext ?_)
  match ax with
  | ⟨0, _⟩ => show win2_2.index t (0 : Fin 2) * 4000 + 1 * p.val = a.val; omega
  | ⟨1, _⟩ => show win2_2.index t (1 : Fin 2) * 1 + 1 * 0 = 0; omega

/-- Window 3's block is its whole array at every point. -/
theorem whole_3 (c : Dev nD) (t : Fin cfg2.N) (a : Fin 64) (k : Fin 64) :
    (iblk2 V c 3 t : Vec Ideal S64x64 .f32) (ix2 a k) = (V c main_arg17 : S64x64.Idx → EReal) (ix2 a k) := by
  obtain ⟨e0, e1, e2, e3, e4, e5, e6, e7, e8, e9, e10, e11, e12, e13, e14⟩ := idx_facts t
  unfold iblk2
  rw [View.read_apply]
  show (V c main_arg17 : S64x64.Idx → EReal) _ = (V c main_arg17 : S64x64.Idx → EReal) _
  refine congrArg _ (funext fun ax => Fin.ext ?_)
  match ax with
  | ⟨0, _⟩ => show win2_3.index t (0 : Fin 2) * 64 + 1 * a.val = a.val; omega
  | ⟨1, _⟩ => show win2_3.index t (1 : Fin 2) * 64 + 1 * k.val = k.val; omega

/-- Window 4's block is its whole array at every point. -/
theorem whole_4 (c : Dev nD) (t : Fin cfg2.N) (a : Fin 64) (k : Fin 64) :
    (iblk2 V c 4 t : Vec Ideal S64x64 .f32) (ix2 a k) = (V c main_arg18 : S64x64.Idx → EReal) (ix2 a k) := by
  obtain ⟨e0, e1, e2, e3, e4, e5, e6, e7, e8, e9, e10, e11, e12, e13, e14⟩ := idx_facts t
  unfold iblk2
  rw [View.read_apply]
  show (V c main_arg18 : S64x64.Idx → EReal) _ = (V c main_arg18 : S64x64.Idx → EReal) _
  refine congrArg _ (funext fun ax => Fin.ext ?_)
  match ax with
  | ⟨0, _⟩ => show win2_4.index t (0 : Fin 2) * 64 + 1 * a.val = a.val; omega
  | ⟨1, _⟩ => show win2_4.index t (1 : Fin 2) * 64 + 1 * k.val = k.val; omega

/-- Window 5's block is its whole array at every point. -/
theorem whole_5 (c : Dev nD) (t : Fin cfg2.N) (a : Fin 1) (k : Fin 64) :
    (iblk2 V c 5 t : Vec Ideal S1x64 .f32) (ix2 a k) = (V c main_v57 : S1x64.Idx → EReal) (ix2 a k) := by
  obtain ⟨e0, e1, e2, e3, e4, e5, e6, e7, e8, e9, e10, e11, e12, e13, e14⟩ := idx_facts t
  unfold iblk2
  rw [View.read_apply]
  show (V c main_v57 : S1x64.Idx → EReal) _ = (V c main_v57 : S1x64.Idx → EReal) _
  refine congrArg _ (funext fun ax => Fin.ext ?_)
  match ax with
  | ⟨0, _⟩ => show win2_5.index t (0 : Fin 2) * 1 + 1 * a.val = a.val; omega
  | ⟨1, _⟩ => show win2_5.index t (1 : Fin 2) * 64 + 1 * k.val = k.val; omega

/-- The row and the column of an index of the result array. -/
def rowOf (i : S100000x64.Idx) : Fin 100000 := ⟨(i 0).val, (i 0).isLt⟩
def colOf (i : S100000x64.Idx) : Fin 64 := ⟨(i 1).val, (i 1).isLt⟩

/-- What the layer writes: its function of the arrays it is entered with, index by index. -/
def G (c : Dev nD) : S100000x64.Idx → EReal := fun i =>
  Spec.layerN (fun a k => (V c main_v44 : S100000x64.Idx → EReal) (ix2 a k))
      (Spec.hnMul (fun a k => (V c main_v56 : S100000x64.Idx → EReal) (ix2 a k)) (fun a => (V c main_v8 : S100000x1.Idx → EReal) (ix2 a (0 : Fin 1))))
      (fun a k => (V c main_arg17 : S64x64.Idx → EReal) (ix2 a k)) (fun a k => (V c main_arg18 : S64x64.Idx → EReal) (ix2 a k)) (fun a => (V c main_v57 : S1x64.Idx → EReal) (ix2 (0 : Fin 1) a)) (rowOf i) (colOf i)

/-- Point t's body result at (p, q) is the layer's function at row 4000·t + p. -/
theorem point_apply (c : Dev nD) (t : Fin cfg2.N) (p : Fin 4000) (q : Fin 64) (a : Fin 100000) (ha : a.val = 4000 * t.val + p.val) :
    (k2_pay1 (iblk2 V c 0 t) (iblk2 V c 1 t) (iblk2 V c 2 t) (iblk2 V c 3 t) (iblk2 V c 4 t) (iblk2 V c 5 t) : Vec Ideal S4000x64 .f32) (ix2 p q)
      = Spec.layerN (fun a k => (V c main_v44 : S100000x64.Idx → EReal) (ix2 a k))
      (Spec.hnMul (fun a k => (V c main_v56 : S100000x64.Idx → EReal) (ix2 a k)) (fun a => (V c main_v8 : S100000x1.Idx → EReal) (ix2 a (0 : Fin 1))))
      (fun a k => (V c main_arg17 : S64x64.Idx → EReal) (ix2 a k)) (fun a k => (V c main_arg18 : S64x64.Idx → EReal) (ix2 a k)) (fun a => (V c main_v57 : S1x64.Idx → EReal) (ix2 (0 : Fin 1) a)) a q := by
  rw [Block.core_apply2]
  rw [Block.blockLin_eq (iblk2 V c 0 t) (iblk2 V c 1 t) (iblk2 V c 2 t) (iblk2 V c 3 t) (iblk2 V c 4 t) (iblk2 V c 5 t) p
    (fun a k => (V c main_v44 : S100000x64.Idx → EReal) (ix2 a k)) (Spec.hnMul (fun a k => (V c main_v56 : S100000x64.Idx → EReal) (ix2 a k)) (fun a => (V c main_v8 : S100000x1.Idx → EReal) (ix2 a (0 : Fin 1))))
    (fun a k => (V c main_arg17 : S64x64.Idx → EReal) (ix2 a k)) (fun a k => (V c main_arg18 : S64x64.Idx → EReal) (ix2 a k)) (fun a => (V c main_v57 : S1x64.Idx → EReal) (ix2 (0 : Fin 1) a)) a
    (fun k => rows_0 V c t p k a ha) (fun k => by rw [rows_1 V c t p k a ha, rows_2 V c t p a ha]; rfl)
    (fun a' k => whole_3 V c t a' k) (fun a' k => whole_4 V c t a' k) (fun a' => whole_5 V c t 0 a')]
  rfl

/-- What point t writes back is block t of the layer's function. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S4000x64) hz, View.ld_unit_zero (S := S4000x1) hz, View.ld_unit_zero (S := S64x64) hz, View.ld_unit_zero (S := S1x64) hz]
  obtain ⟨e0, e1, e2, e3, e4, e5, e6, e7, e8, e9, e10, e11, e12, e13, e14⟩ := idx_facts t
  funext j
  obtain ⟨p, q, rfl⟩ : ∃ (p : Fin 4000) (q : Fin 64), j = ix2 p q := ⟨j 0, j 1, eq_ix2 j⟩
  rw [View.read_apply]
  have hr : rowOf (((cfg2.win 6).blk t).view.emb (ix2 p q)) = ⟨4000 * t.val + p.val, by omega⟩ :=
    Fin.ext (by show win2_6.index t (0 : Fin 2) * 4000 + 1 * p.val = 4000 * t.val + p.val; omega)
  have hc : colOf (((cfg2.win 6).blk t).view.emb (ix2 p q)) = q :=
    Fin.ext (by show win2_6.index t (1 : Fin 2) * 64 + 1 * q.val = q.val; omega)
  unfold G
  rw [hr, hc]
  exact point_apply V c t p q ⟨4000 * t.val + p.val, by omega⟩ rfl

/-- An index of the array is in point t's block iff each coordinate is in the block's range on its axis. -/
theorem mem_blk (t : Fin cfg2.N) (i : S100000x64.Idx) :
    i ∈ ((cfg2.win 6).blk t).view.set ↔ ∀ a : Fin 2, win2_6.index t a * S4000x64.size a ≤ (i a).val ∧ (i a).val < win2_6.index t a * S4000x64.size a + S4000x64.size a := by
  show i ∈ ((View.whole main_v58).slice (win2_6.rect t)).set ↔ _
  rw [View.set_slice_whole, Rect.mem_set_unit]
  exact Iff.rfl

/-- Every block index of axis 0 is some point's. -/
theorem idx_onto : ∀ q0 : Fin 25, ∃ t : Fin cfg2.N, win2_6.index t = ![q0.val, 0] :=
  (by decide +kernel : ∀ q0 : Fin 25, ∃ t : Fin grid2.N, win2_6.index t = ![q0.val, 0])

/-- The 25 blocks cover the array: row r lies in block r / 4000. -/
theorem cover (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ := idx_onto ⟨(i 0).val / 4000, by omega⟩
  have q0 : win2_6.index t (0 : Fin 2) = (i 0).val / 4000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 64 ≤ (i 1).val ∧ (i 1).val < win2_6.index t (1 : Fin 2) * 64 + 64; omega

/-- The result array after the layer's 25 points is the layer's function of the arrays it was entered with. -/
theorem final (c : Dev nD) : (dat2 V c).arrAt 6 cfg2.N = G V c :=
  (dat2 V c).arrAt_eq_of_cover 6 (G V c) (fun t _ => flushed_eq V c t) (cover)

/-- The layer's function with the arrays it is entered with named. -/
theorem G_eq (c : Dev nD) (X0 : S100000x64.Idx → EReal) (X1 : S100000x64.Idx → EReal) (X2 : S100000x1.Idx → EReal) (X3 : S64x64.Idx → EReal) (X4 : S64x64.Idx → EReal) (X5 : S1x64.Idx → EReal)
    (h0 : (V c main_v44 : S100000x64.Idx → EReal) = X0) (h1 : (V c main_v56 : S100000x64.Idx → EReal) = X1) (h2 : (V c main_v8 : S100000x1.Idx → EReal) = X2) (h3 : (V c main_arg17 : S64x64.Idx → EReal) = X3) (h4 : (V c main_arg18 : S64x64.Idx → EReal) = X4) (h5 : (V c main_v57 : S1x64.Idx → EReal) = X5) :
    G V c = fun i => Spec.layerN (fun a k => X0 (ix2 a k)) (Spec.hnMul (fun a k => X1 (ix2 a k)) (fun a => X2 (ix2 a (0 : Fin 1))))
      (fun a k => X3 (ix2 a k)) (fun a k => X4 (ix2 a k)) (fun a => X5 (ix2 (0 : Fin 1) a)) (rowOf i) (colOf i) := by
  unfold G
  rw [h0, h1, h2, h3, h4, h5]

end Cert.Sage.Layer2

end
-- ==== Proof.HostReads.lean ====
/-
  The host operations around the three layers, read as functions.

  Before each layer the program gathers, for every edge, the source node's feature row (a negative source index
  counted from the end), and adds the gathered rows into the destination nodes' rows of a zero array: the
  neighbours' sums.  Once, before the first layer, it adds a one per edge into the destination node's entry of a
  zero vector (the degree), floors it at one and takes the reciprocal, as a one-column array.  The bias and the four
  per-channel vectors of a layer are recast as one-row arrays.  The changes of float format around the gather are
  the identity on the extended reals.
-/
import proofs.«153891_j51084341018874_2_alg».proof.Proof.Gen.KernelIdeal
import proofs.«153891_j51084341018874_2_alg».proof.Proof.Gen.KernelIdeal.Launch
import proofs.«153891_j51084341018874_2_alg».proof.Proof.Spec
import proofs.«153891_j51084341018874_2_alg».proof.Proof.LibColumns
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.Sage.Host

open Idealize.ShloMosaic Idealize.ShloMosaic.TcCoe Idealize.ShloMosaic.StableHlo Idealize.ShloMosaic.ValueIdx
open Cert.KernelIdeal Cert.KernelIdeal.Gen

/-- The edges' source rows, a negative index counted from the end, as a one-column index array. -/
def srcRows (e1 : (⟨S1600000, .i32⟩ : BufTy).Contents (Elt Ideal)) : (⟨S1600000x1, .i32⟩ : BufTy).Contents (Elt Ideal) :=
  broadcastInDim S1600000x1 ![0] bcast_S1600000_S1600000x1_0
    (select (cmpi .slt e1 (broadcastInDim S1600000 ![] bcast_S_S1600000 (constantI S_ 32 0#32)))
      (addi e1 (broadcastInDim S1600000 ![] bcast_S_S1600000 (constantI S_ 32 100000#32))) e1)

/-- The neighbours' sums of the feature rows h: the gathered source rows added into the destination rows. -/
def aggK (h : (⟨S100000x64, .f32⟩ : BufTy).Contents (Elt Ideal)) (e1 e2 : (⟨S1600000, .i32⟩ : BufTy).Contents (Elt Ideal)) : (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 e2)
    (extf .f32 (Host.gather gather_S100000x64_S1600000x1_S1600000x64_1_0_n_n_0_1_164 (truncf .bf16 h bitsLt_bf16_f32) (srcRows e1)) bitsLt_bf16_f32)

/-- The degree: a one per edge added into the destination node's entry. -/
def degK (e2 : (⟨S1600000, .i32⟩ : BufTy).Contents (Elt Ideal)) : (⟨S100000, .f32⟩ : BufTy).Contents (Elt Ideal) :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 e2)
    (broadcastInDim S1600000 ![] bcast_S_S1600000 (constant (F := Ideal) S_ .f32 0x3F800000#32))

/-- The reciprocal of the degree floored at one, as a one-column array. -/
def invK (e2 : (⟨S1600000, .i32⟩ : BufTy).Contents (Elt Ideal)) : (⟨S100000x1, .f32⟩ : BufTy).Contents (Elt Ideal) :=
  shapeCast S100000x1
    (Host.divf (broadcastInDim S100000 ![] bcast_S_S100000 (constant (F := Ideal) S_ .f32 0x3F800000#32))
      (maximumf (degK e2) (broadcastInDim S100000 ![] bcast_S_S100000 (constant (F := Ideal) S_ .f32 0x3F800000#32))))
    shapeCasts_S100000_S100000x1

/-- The host's quotient of two vectors, at an entry. -/
theorem hostDiv_at (x y : FVec Ideal S100000 .f32) (i : S100000.Idx) : Host.divf x y i = Ideal.div (x i) (y i) := rfl

/-- The reciprocal column at node a. -/
theorem invK_apply (e2 : (⟨S1600000, .i32⟩ : BufTy).Contents (Elt Ideal)) (a : Fin 100000) :
    invK e2 (ix2 a (0 : Fin 1)) = Ideal.div Spec.oneW (max (degK e2 (ix1 a)) Spec.oneW) := by
  unfold invK
  refine (Cert.Sage.Layout.shapeCast_n_n1_apply (n := 100000) _ shapeCasts_S100000_S100000x1 a).trans ?_
  have hc : constant (F := Ideal) S_ .f32 0x3F800000#32 ix0 = Spec.oneW := rfl
  rw [hostDiv_at, maximumf_apply, Cert.Sage.Layout.broadcastInDim_scalar_apply, hc]

/-- The neighbours' sum times the reciprocal column is the neighbours' mean: the sum over max (degree, 1). -/
theorem hn_eq (h : (⟨S100000x64, .f32⟩ : BufTy).Contents (Elt Ideal)) (e1 e2 : (⟨S1600000, .i32⟩ : BufTy).Contents (Elt Ideal)) :
    Spec.hnMul (fun a k => aggK h e1 e2 (ix2 a k)) (fun a => invK e2 (ix2 a (0 : Fin 1)))
      = Spec.hnDiv (fun a k => aggK h e1 e2 (ix2 a k)) (fun a => degK e2 (ix1 a)) := by
  funext a k
  show aggK h e1 e2 (ix2 a k) * invK e2 (ix2 a (0 : Fin 1)) = Ideal.div (aggK h e1 e2 (ix2 a k)) (max (degK e2 (ix1 a)) Spec.oneW)
  rw [invK_apply]
  exact Spec.mul_recip _ _ (Spec.max_one_ne_zero _)

variable (W : Valuation τ sig (Elt Ideal))

/-! ## Before the first layer -/

set_option maxHeartbeats 2000000 in
theorem pre0_agg : StableHlo.after (hostOps0 (F := Ideal)) W (Proc.devRef .tc main_v20)
    = aggK (W (Proc.devRef .tc main_arg0)) (W (Proc.devRef .tc main_arg1)) (W (Proc.devRef .tc main_arg2)) := by
  after_results_simp <;> rfl
set_option maxHeartbeats 2000000 in
theorem pre0_inv : StableHlo.after (hostOps0 (F := Ideal)) W (Proc.devRef .tc main_v8) = invK (W (Proc.devRef .tc main_arg2)) := by
  after_results_simp <;> rfl
theorem pre0_main_v21 : StableHlo.after (hostOps0 (F := Ideal)) W (Proc.devRef .tc main_v21) = shapeCast S1x64 (W (Proc.devRef .tc main_arg5)) shapeCasts_S64_S1x64 := by
  after_results_simp <;> rfl
theorem pre0_main_v22 : StableHlo.after (hostOps0 (F := Ideal)) W (Proc.devRef .tc main_v22) = shapeCast S1x64 (W (Proc.devRef .tc main_arg6)) shapeCasts_S64_S1x64 := by
  after_results_simp <;> rfl
theorem pre0_main_v23 : StableHlo.after (hostOps0 (F := Ideal)) W (Proc.devRef .tc main_v23) = shapeCast S1x64 (W (Proc.devRef .tc main_arg7)) shapeCasts_S64_S1x64 := by
  after_results_simp <;> rfl
theorem pre0_main_v24 : StableHlo.after (hostOps0 (F := Ideal)) W (Proc.devRef .tc main_v24) = shapeCast S1x64 (W (Proc.devRef .tc main_arg8)) shapeCasts_S64_S1x64 := by
  after_results_simp <;> rfl
theorem pre0_main_v25 : StableHlo.after (hostOps0 (F := Ideal)) W (Proc.devRef .tc main_v25) = shapeCast S1x64 (W (Proc.devRef .tc main_arg9)) shapeCasts_S64_S1x64 := by
  after_results_simp <;> rfl

theorem pre0_main_arg0 : StableHlo.after (hostOps0 (F := Ideal)) W (Proc.devRef .tc main_arg0) = W (Proc.devRef .tc main_arg0) := by
  after_results_simp <;> rfl
theorem pre0_main_arg1 : StableHlo.after (hostOps0 (F := Ideal)) W (Proc.devRef .tc main_arg1) = W (Proc.devRef .tc main_arg1) := by
  after_results_simp <;> rfl
theorem pre0_main_arg2 : StableHlo.after (hostOps0 (F := Ideal)) W (Proc.devRef .tc main_arg2) = W (Proc.devRef .tc main_arg2) := by
  after_results_simp <;> rfl
theorem pre0_main_arg3 : StableHlo.after (hostOps0 (F := Ideal)) W (Proc.devRef .tc main_arg3) = W (Proc.devRef .tc main_arg3) := by
  after_results_simp <;> rfl
theorem pre0_main_arg4 : StableHlo.after (hostOps0 (F := Ideal)) W (Proc.devRef .tc main_arg4) = W (Proc.devRef .tc main_arg4) := by
  after_results_simp <;> rfl
theorem pre0_main_arg10 : StableHlo.after (hostOps0 (F := Ideal)) W (Proc.devRef .tc main_arg10) = W (Proc.devRef .tc main_arg10) := by
  after_results_simp <;> rfl
theorem pre0_main_arg11 : StableHlo.after (hostOps0 (F := Ideal)) W (Proc.devRef .tc main_arg11) = W (Proc.devRef .tc main_arg11) := by
  after_results_simp <;> rfl
theorem pre0_main_arg12 : StableHlo.after (hostOps0 (F := Ideal)) W (Proc.devRef .tc main_arg12) = W (Proc.devRef .tc main_arg12) := by
  after_results_simp <;> rfl
theorem pre0_main_arg13 : StableHlo.after (hostOps0 (F := Ideal)) W (Proc.devRef .tc main_arg13) = W (Proc.devRef .tc main_arg13) := by
  after_results_simp <;> rfl
theorem pre0_main_arg14 : StableHlo.after (hostOps0 (F := Ideal)) W (Proc.devRef .tc main_arg14) = W (Proc.devRef .tc main_arg14) := by
  after_results_simp <;> rfl
theorem pre0_main_arg15 : StableHlo.after (hostOps0 (F := Ideal)) W (Proc.devRef .tc main_arg15) = W (Proc.devRef .tc main_arg15) := by
  after_results_simp <;> rfl
theorem pre0_main_arg16 : StableHlo.after (hostOps0 (F := Ideal)) W (Proc.devRef .tc main_arg16) = W (Proc.devRef .tc main_arg16) := by
  after_results_simp <;> rfl
theorem pre0_main_arg17 : StableHlo.after (hostOps0 (F := Ideal)) W (Proc.devRef .tc main_arg17) = W (Proc.devRef .tc main_arg17) := by
  after_results_simp <;> rfl
theorem pre0_main_arg18 : StableHlo.after (hostOps0 (F := Ideal)) W (Proc.devRef .tc main_arg18) = W (Proc.devRef .tc main_arg18) := by
  after_results_simp <;> rfl
theorem pre0_main_arg19 : StableHlo.after (hostOps0 (F := Ideal)) W (Proc.devRef .tc main_arg19) = W (Proc.devRef .tc main_arg19) := by
  after_results_simp <;> rfl

/-! ## Before the second layer -/

set_option maxHeartbeats 2000000 in
theorem pre1_agg : StableHlo.after (hostOps1 (F := Ideal)) W (Proc.devRef .tc main_v38)
    = aggK (W (Proc.devRef .tc main_v26)) (W (Proc.devRef .tc main_arg1)) (W (Proc.devRef .tc main_arg2)) := by
  after_results_simp <;> rfl
theorem pre1_main_v26 : StableHlo.after (hostOps1 (F := Ideal)) W (Proc.devRef .tc main_v26) = W (Proc.devRef .tc main_v26) := by
  after_results_simp <;> rfl
theorem pre1_main_v8 : StableHlo.after (hostOps1 (F := Ideal)) W (Proc.devRef .tc main_v8) = W (Proc.devRef .tc main_v8) := by
  after_results_simp <;> rfl
theorem pre1_main_v39 : StableHlo.after (hostOps1 (F := Ideal)) W (Proc.devRef .tc main_v39) = shapeCast S1x64 (W (Proc.devRef .tc main_arg12)) shapeCasts_S64_S1x64 := by
  after_results_simp <;> rfl
theorem pre1_main_v40 : StableHlo.after (hostOps1 (F := Ideal)) W (Proc.devRef .tc main_v40) = shapeCast S1x64 (W (Proc.devRef .tc main_arg13)) shapeCasts_S64_S1x64 := by
  after_results_simp <;> rfl
theorem pre1_main_v41 : StableHlo.after (hostOps1 (F := Ideal)) W (Proc.devRef .tc main_v41) = shapeCast S1x64 (W (Proc.devRef .tc main_arg14)) shapeCasts_S64_S1x64 := by
  after_results_simp <;> rfl
theorem pre1_main_v42 : StableHlo.after (hostOps1 (F := Ideal)) W (Proc.devRef .tc main_v42) = shapeCast S1x64 (W (Proc.devRef .tc main_arg15)) shapeCasts_S64_S1x64 := by
  after_results_simp <;> rfl
theorem pre1_main_v43 : StableHlo.after (hostOps1 (F := Ideal)) W (Proc.devRef .tc main_v43) = shapeCast S1x64 (W (Proc.devRef .tc main_arg16)) shapeCasts_S64_S1x64 := by
  after_results_simp <;> rfl

theorem pre1_main_arg1 : StableHlo.after (hostOps1 (F := Ideal)) W (Proc.devRef .tc main_arg1) = W (Proc.devRef .tc main_arg1) := by
  after_results_simp <;> rfl
theorem pre1_main_arg2 : StableHlo.after (hostOps1 (F := Ideal)) W (Proc.devRef .tc main_arg2) = W (Proc.devRef .tc main_arg2) := by
  after_results_simp <;> rfl
theorem pre1_main_arg10 : StableHlo.after (hostOps1 (F := Ideal)) W (Proc.devRef .tc main_arg10) = W (Proc.devRef .tc main_arg10) := by
  after_results_simp <;> rfl
theorem pre1_main_arg11 : StableHlo.after (hostOps1 (F := Ideal)) W (Proc.devRef .tc main_arg11) = W (Proc.devRef .tc main_arg11) := by
  after_results_simp <;> rfl
theorem pre1_main_arg17 : StableHlo.after (hostOps1 (F := Ideal)) W (Proc.devRef .tc main_arg17) = W (Proc.devRef .tc main_arg17) := by
  after_results_simp <;> rfl
theorem pre1_main_arg18 : StableHlo.after (hostOps1 (F := Ideal)) W (Proc.devRef .tc main_arg18) = W (Proc.devRef .tc main_arg18) := by
  after_results_simp <;> rfl
theorem pre1_main_arg19 : StableHlo.after (hostOps1 (F := Ideal)) W (Proc.devRef .tc main_arg19) = W (Proc.devRef .tc main_arg19) := by
  after_results_simp <;> rfl

/-! ## Before the third layer -/

set_option maxHeartbeats 2000000 in
theorem pre2_agg : StableHlo.after (hostOps2 (F := Ideal)) W (Proc.devRef .tc main_v56)
    = aggK (W (Proc.devRef .tc main_v44)) (W (Proc.devRef .tc main_arg1)) (W (Proc.devRef .tc main_arg2)) := by
  after_results_simp <;> rfl
theorem pre2_main_v44 : StableHlo.after (hostOps2 (F := Ideal)) W (Proc.devRef .tc main_v44) = W (Proc.devRef .tc main_v44) := by
  after_results_simp <;> rfl
theorem pre2_main_v8 : StableHlo.after (hostOps2 (F := Ideal)) W (Proc.devRef .tc main_v8) = W (Proc.devRef .tc main_v8) := by
  after_results_simp <;> rfl
theorem pre2_main_v57 : StableHlo.after (hostOps2 (F := Ideal)) W (Proc.devRef .tc main_v57) = shapeCast S1x64 (W (Proc.devRef .tc main_arg19)) shapeCasts_S64_S1x64 := by
  after_results_simp <;> rfl

theorem pre2_main_arg1 : StableHlo.after (hostOps2 (F := Ideal)) W (Proc.devRef .tc main_arg1) = W (Proc.devRef .tc main_arg1) := by
  after_results_simp <;> rfl
theorem pre2_main_arg2 : StableHlo.after (hostOps2 (F := Ideal)) W (Proc.devRef .tc main_arg2) = W (Proc.devRef .tc main_arg2) := by
  after_results_simp <;> rfl
theorem pre2_main_arg17 : StableHlo.after (hostOps2 (F := Ideal)) W (Proc.devRef .tc main_arg17) = W (Proc.devRef .tc main_arg17) := by
  after_results_simp <;> rfl
theorem pre2_main_arg18 : StableHlo.after (hostOps2 (F := Ideal)) W (Proc.devRef .tc main_arg18) = W (Proc.devRef .tc main_arg18) := by
  after_results_simp <;> rfl

end Cert.Sage.Host

end
-- ==== Proof.RefLayers.lean ====
/-
  The reference program, layer by layer, is the layer of the specification.

  Each of the three layers of the reference reads: the neighbours' sum divided by max (degree, 1); two contractions
  against transposed 64×64 weights, added together with a bias; the row divided by the larger of its Euclidean length
  and a small floor; and, in the first two layers, a per-channel affine map with the reciprocal square root of a
  shifted variance, clamped below at zero. Read at node i and channel j, every stage is the corresponding term of
  the specification. The neighbours' sum and the degree (a scatter of gathered rows, a scatter of ones) are left as
  they are: the specification takes them as given functions.

  The proofs only chase indices: a broadcast, a transpose or a contraction reads its operand at an index built from
  the coordinates of (i, j), and each such index is identified, coordinate by coordinate, with the pair or the single
  coordinate it denotes.
-/
import proofs.«153891_j51084341018874_2_alg».proof.Proof.Gen.ReferenceIdeal.Read
import proofs.«153891_j51084341018874_2_alg».proof.Proof.Spec
import Idealize.ShloMosaic.Lib.ValueIdx
import Idealize.ShloMosaic.Lib.Pipeline.Value
import Idealize.ShloMosaic.PureOps.Ideal.Laws

noncomputable section

namespace Cert.Sage.RefLayers

open Idealize.ShloMosaic Idealize.ShloMosaic.ValueIdx Cert.ReferenceIdeal Cert.ReferenceIdeal.Read

/-! ### Layer 1 -/

/-- The divisor of the neighbours' sum at node i (any column k): the larger of the degree and one. -/
theorem l1_deg (x2 : (⟨S1600000, .i32⟩ : BufTy).Contents (Elt Ideal)) (i : Fin 100000) (k : Fin 64) :
    val_main_v17 (F := Ideal) x2 (ix2 i k) = max (val_main_v3 (F := Ideal) x2 (ix1 i)) Spec.oneW := by
  rw [val_main_v17_apply, val_main_v16_apply]
  have h : idx_main_v16 (idx_main_v17 (ix2 i k)) = ix1 i := by
    funext a; match a with | ⟨0, _⟩ => rfl
  rw [h, val_main_v15_apply, val_main_v14_apply, val_main_cst_3_apply]
  rfl

/-- The neighbours' mean at node i, channel k: their sum divided by max (degree, 1). -/
theorem l1_hn (x0 : (⟨S100000x64, .f32⟩ : BufTy).Contents (Elt Ideal)) (x1 x2 : (⟨S1600000, .i32⟩ : BufTy).Contents (Elt Ideal)) (i : Fin 100000) (k : Fin 64) :
    val_main_v18 (F := Ideal) x0 x1 x2 (ix2 i k) = (Spec.hnDiv (fun a k => val_main_v13 (F := Ideal) x0 x1 x2 (ix2 a k)) (fun a => val_main_v3 (F := Ideal) x2 (ix1 a))) i k := by
  rw [val_main_v18_apply, l1_deg]
  rfl

/-- Both linear maps and the bias at node i, channel j: each contraction runs over the second coordinate of the
    features and, the weights being transposed first, over the second coordinate of the weights. -/
theorem l1_lin (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 : (⟨S64, .f32⟩ : BufTy).Contents (Elt Ideal)) (i : Fin 100000) (j : Fin 64) :
    val_main_v26 (F := Ideal) x0 x1 x2 x3 x4 x5 (ix2 i j) = Spec.lin (fun a k => x0 (ix2 a k)) (Spec.hnDiv (fun a k => val_main_v13 (F := Ideal) x0 x1 x2 (ix2 a k)) (fun a => val_main_v3 (F := Ideal) x2 (ix1 a))) (fun a k => x3 (ix2 a k)) (fun a k => x4 (ix2 a k)) (fun a => x5 (ix1 a)) i j := by
  rw [val_main_v26_apply, val_main_v23_apply, val_main_v20_apply, val_main_v22_apply, val_main_v25_apply, val_main_v24_apply]
  have hb : idx_main_v24 (idx_main_v25 (ix2 i j)) = ix1 j := by
    funext a; match a with | ⟨0, _⟩ => rfl
  have h1 : ∀ k : Fin 64, x0 (lidx_main_v20 (ix2 i j) k) * val_main_v19 (F := Ideal) x3 (ridx_main_v20 (ix2 i j) k)
      = x0 (ix2 i k) * x3 (ix2 j k) := by
    intro k
    rw [val_main_v19_apply]
    have e1 : lidx_main_v20 (ix2 i j) k = ix2 i k := by
      funext a; match a with | ⟨0, _⟩ => rfl | ⟨1, _⟩ => rfl
    have e2 : idx_main_v19 (ridx_main_v20 (ix2 i j) k) = ix2 j k := by
      funext a; match a with | ⟨0, _⟩ => rfl | ⟨1, _⟩ => rfl
    rw [e1, e2]
  have h2 : ∀ k : Fin 64, val_main_v18 (F := Ideal) x0 x1 x2 (lidx_main_v22 (ix2 i j) k) * val_main_v21 (F := Ideal) x4 (ridx_main_v22 (ix2 i j) k)
      = (Spec.hnDiv (fun a k => val_main_v13 (F := Ideal) x0 x1 x2 (ix2 a k)) (fun a => val_main_v3 (F := Ideal) x2 (ix1 a))) i k * x4 (ix2 j k) := by
    intro k
    rw [val_main_v21_apply]
    have e1 : lidx_main_v22 (ix2 i j) k = ix2 i k := by
      funext a; match a with | ⟨0, _⟩ => rfl | ⟨1, _⟩ => rfl
    have e2 : idx_main_v21 (ridx_main_v22 (ix2 i j) k) = ix2 j k := by
      funext a; match a with | ⟨0, _⟩ => rfl | ⟨1, _⟩ => rfl
    rw [e1, e2, l1_hn]
  rw [hb, Finset.sum_congr rfl (fun k _ => h1 k), Finset.sum_congr rfl (fun k _ => h2 k)]
  rfl

/-- The sum of the squares of row i of the linear stage (the sum starts from the word of 0.0, which is 0). -/
theorem l1_sq (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 : (⟨S64, .f32⟩ : BufTy).Contents (Elt Ideal)) (i : Fin 100000) :
    val_main_v28 (F := Ideal) x0 x1 x2 x3 x4 x5 (ix1 i) = ∑ q : Fin 64, Spec.lin (fun a k => x0 (ix2 a k)) (Spec.hnDiv (fun a k => val_main_v13 (F := Ideal) x0 x1 x2 (ix2 a k)) (fun a => val_main_v3 (F := Ideal) x2 (ix1 a))) (fun a k => x3 (ix2 a k)) (fun a k => x4 (ix2 a k)) (fun a => x5 (ix1 a)) i q * Spec.lin (fun a k => x0 (ix2 a k)) (Spec.hnDiv (fun a k => val_main_v13 (F := Ideal) x0 x1 x2 (ix2 a k)) (fun a => val_main_v3 (F := Ideal) x2 (ix1 a))) (fun a k => x3 (ix2 a k)) (fun a k => x4 (ix2 a k)) (fun a => x5 (ix1 a)) i q := by
  rw [val_main_v28_apply, val_main_cst_4_apply]
  have h : ∀ q : Fin 64, val_main_v27 (F := Ideal) x0 x1 x2 x3 x4 x5 (idx_main_v28 (ix1 i) q) = Spec.lin (fun a k => x0 (ix2 a k)) (Spec.hnDiv (fun a k => val_main_v13 (F := Ideal) x0 x1 x2 (ix2 a k)) (fun a => val_main_v3 (F := Ideal) x2 (ix1 a))) (fun a k => x3 (ix2 a k)) (fun a k => x4 (ix2 a k)) (fun a => x5 (ix1 a)) i q * Spec.lin (fun a k => x0 (ix2 a k)) (Spec.hnDiv (fun a k => val_main_v13 (F := Ideal) x0 x1 x2 (ix2 a k)) (fun a => val_main_v3 (F := Ideal) x2 (ix1 a))) (fun a k => x3 (ix2 a k)) (fun a k => x4 (ix2 a k)) (fun a => x5 (ix1 a)) i q := by
    intro q
    have e : idx_main_v28 (ix1 i) q = ix2 i q := by
      funext a; match a with | ⟨0, _⟩ => rfl | ⟨1, _⟩ => rfl
    rw [e, val_main_v27_apply, l1_lin]
    rfl
  rw [Finset.sum_congr rfl (fun q _ => h q), Ideal.ofBits_def, Ideal.ofBits_zero_f32, zero_add]

/-- The row scaled to unit length: the linear stage divided by the larger of its row's length and the floor. -/
theorem l1_unit (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 : (⟨S64, .f32⟩ : BufTy).Contents (Elt Ideal)) (i : Fin 100000) (j : Fin 64) :
    val_main_v34 (F := Ideal) x0 x1 x2 x3 x4 x5 (ix2 i j) = Spec.layerN (fun a k => x0 (ix2 a k)) (Spec.hnDiv (fun a k => val_main_v13 (F := Ideal) x0 x1 x2 (ix2 a k)) (fun a => val_main_v3 (F := Ideal) x2 (ix1 a))) (fun a k => x3 (ix2 a k)) (fun a k => x4 (ix2 a k)) (fun a => x5 (ix1 a)) i j := by
  rw [val_main_v34_apply, l1_lin, val_main_v33_apply, val_main_v32_apply, val_main_v30_apply, val_main_v29_apply, val_main_v31_apply, val_main_cst_5_apply]
  have e : idx_main_v29 (idx_main_v33 (ix2 i j)) = ix1 i := by
    funext a; match a with | ⟨0, _⟩ => rfl
  rw [e, l1_sq]
  rfl

/-- The whole layer: the unit row, then the per-channel affine map (subtract, scale, multiply by the reciprocal square
    root of the shifted variance, add), then the clamp below at the word of 0.0. -/
theorem layer1 (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 x6 x7 x8 x9 : (⟨S64, .f32⟩ : BufTy).Contents (Elt Ideal)) (i : Fin 100000) (j : Fin 64) :
    val_main_v50 (F := Ideal) x0 x1 x2 x3 x4 x5 x6 x7 x8 x9 (ix2 i j)
      = Spec.layerB (fun a k => x0 (ix2 a k))
          (Spec.hnDiv (fun a k => val_main_v13 (F := Ideal) x0 x1 x2 (ix2 a k)) (fun a => val_main_v3 (F := Ideal) x2 (ix1 a)))
          (fun a k => x3 (ix2 a k)) (fun a k => x4 (ix2 a k)) (fun a => x5 (ix1 a))
          (fun a => x6 (ix1 a)) (fun a => x7 (ix1 a)) (fun a => x8 (ix1 a)) (fun a => x9 (ix1 a)) i j := by
  rw [val_main_v50_apply, val_main_v49_apply, val_main_v46_apply, val_main_v40_apply, val_main_v37_apply, l1_unit,
    val_main_v36_apply, val_main_v35_apply, val_main_v39_apply, val_main_v38_apply, val_main_v45_apply, val_main_v44_apply, val_main_v43_apply, val_main_v42_apply, val_main_v41_apply, val_main_cst_6_apply,
    val_main_v48_apply, val_main_v47_apply, val_main_call0_v0_apply, val_main_call0_cst_apply]
  have e1 : idx_main_v35 (idx_main_v36 (ix2 i j)) = ix1 j := by
    funext a; match a with | ⟨0, _⟩ => rfl
  have e2 : idx_main_v38 (idx_main_v39 (ix2 i j)) = ix1 j := by
    funext a; match a with | ⟨0, _⟩ => rfl
  have e3 : idx_main_v44 (idx_main_v45 (ix2 i j)) = ix1 j := by
    funext a; match a with | ⟨0, _⟩ => rfl
  have e4 : idx_main_v47 (idx_main_v48 (ix2 i j)) = ix1 j := by
    funext a; match a with | ⟨0, _⟩ => rfl
  rw [e1, e2, e3, e4]
  rfl

/-! ### Layer 2 -/

/-- The divisor of the neighbours' sum at node i (any column k): the larger of the degree and one. -/
theorem l2_deg (x2 : (⟨S1600000, .i32⟩ : BufTy).Contents (Elt Ideal)) (i : Fin 100000) (k : Fin 64) :
    val_main_v68 (F := Ideal) x2 (ix2 i k) = max (val_main_v54 (F := Ideal) x2 (ix1 i)) Spec.oneW := by
  rw [val_main_v68_apply, val_main_v67_apply]
  have h : idx_main_v67 (idx_main_v68 (ix2 i k)) = ix1 i := by
    funext a; match a with | ⟨0, _⟩ => rfl
  rw [h, val_main_v66_apply, val_main_v65_apply, val_main_cst_12_apply]
  rfl

/-- The neighbours' mean at node i, channel k: their sum divided by max (degree, 1). -/
theorem l2_hn (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 x6 x7 x8 x9 : (⟨S64, .f32⟩ : BufTy).Contents (Elt Ideal)) (i : Fin 100000) (k : Fin 64) :
    val_main_v69 (F := Ideal) x0 x1 x2 x3 x4 x5 x6 x7 x8 x9 (ix2 i k) = (Spec.hnDiv (fun a k => val_main_v64 (F := Ideal) x0 x1 x2 x3 x4 x5 x6 x7 x8 x9 (ix2 a k)) (fun a => val_main_v54 (F := Ideal) x2 (ix1 a))) i k := by
  rw [val_main_v69_apply, l2_deg]
  rfl

/-- Both linear maps and the bias at node i, channel j: each contraction runs over the second coordinate of the
    features and, the weights being transposed first, over the second coordinate of the weights. -/
theorem l2_lin (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 x6 x7 x8 x9 : (⟨S64, .f32⟩ : BufTy).Contents (Elt Ideal)) (x10 x11 : (⟨S64x64, .f32⟩ : BufTy).Contents (Elt Ideal)) (x12 : (⟨S64, .f32⟩ : BufTy).Contents (Elt Ideal)) (i : Fin 100000) (j : Fin 64) :
    val_main_v77 (F := Ideal) x0 x1 x2 x3 x4 x5 x6 x7 x8 x9 x10 x11 x12 (ix2 i j) = Spec.lin (fun a k => (val_main_v50 (F := Ideal) x0 x1 x2 x3 x4 x5 x6 x7 x8 x9) (ix2 a k)) (Spec.hnDiv (fun a k => val_main_v64 (F := Ideal) x0 x1 x2 x3 x4 x5 x6 x7 x8 x9 (ix2 a k)) (fun a => val_main_v54 (F := Ideal) x2 (ix1 a))) (fun a k => x10 (ix2 a k)) (fun a k => x11 (ix2 a k)) (fun a => x12 (ix1 a)) i j := by
  rw [val_main_v77_apply, val_main_v74_apply, val_main_v71_apply, val_main_v73_apply, val_main_v76_apply, val_main_v75_apply]
  have hb : idx_main_v75 (idx_main_v76 (ix2 i j)) = ix1 j := by
    funext a; match a with | ⟨0, _⟩ => rfl
  have h1 : ∀ k : Fin 64, (val_main_v50 (F := Ideal) x0 x1 x2 x3 x4 x5 x6 x7 x8 x9) (lidx_main_v71 (ix2 i j) k) * val_main_v70 (F := Ideal) x10 (ridx_main_v71 (ix2 i j) k)
      = (val_main_v50 (F := Ideal) x0 x1 x2 x3 x4 x5 x6 x7 x8 x9) (ix2 i k) * x10 (ix2 j k) := by
    intro k
    rw [val_main_v70_apply]
    have e1 : lidx_main_v71 (ix2 i j) k = ix2 i k := by
      funext a; match a with | ⟨0, _⟩ => rfl | ⟨1, _⟩ => rfl
    have e2 : idx_main_v70 (ridx_main_v71 (ix2 i j) k) = ix2 j k := by
      funext a; match a with | ⟨0, _⟩ => rfl | ⟨1, _⟩ => rfl
    rw [e1, e2]
  have h2 : ∀ k : Fin 64, val_main_v69 (F := Ideal) x0 x1 x2 x3 x4 x5 x6 x7 x8 x9 (lidx_main_v73 (ix2 i j) k) * val_main_v72 (F := Ideal) x11 (ridx_main_v73 (ix2 i j) k)
      = (Spec.hnDiv (fun a k => val_main_v64 (F := Ideal) x0 x1 x2 x3 x4 x5 x6 x7 x8 x9 (ix2 a k)) (fun a => val_main_v54 (F := Ideal) x2 (ix1 a))) i k * x11 (ix2 j k) := by
    intro k
    rw [val_main_v72_apply]
    have e1 : lidx_main_v73 (ix2 i j) k = ix2 i k := by
      funext a; match a with | ⟨0, _⟩ => rfl | ⟨1, _⟩ => rfl
    have e2 : idx_main_v72 (ridx_main_v73 (ix2 i j) k) = ix2 j k := by
      funext a; match a with | ⟨0, _⟩ => rfl | ⟨1, _⟩ => rfl
    rw [e1, e2, l2_hn]
  rw [hb, Finset.sum_congr rfl (fun k _ => h1 k), Finset.sum_congr rfl (fun k _ => h2 k)]
  rfl

/-- The sum of the squares of row i of the linear stage (the sum starts from the word of 0.0, which is 0). -/
theorem l2_sq (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 x6 x7 x8 x9 : (⟨S64, .f32⟩ : BufTy).Contents (Elt Ideal)) (x10 x11 : (⟨S64x64, .f32⟩ : BufTy).Contents (Elt Ideal)) (x12 : (⟨S64, .f32⟩ : BufTy).Contents (Elt Ideal)) (i : Fin 100000) :
    val_main_v79 (F := Ideal) x0 x1 x2 x3 x4 x5 x6 x7 x8 x9 x10 x11 x12 (ix1 i) = ∑ q : Fin 64, Spec.lin (fun a k => (val_main_v50 (F := Ideal) x0 x1 x2 x3 x4 x5 x6 x7 x8 x9) (ix2 a k)) (Spec.hnDiv (fun a k => val_main_v64 (F := Ideal) x0 x1 x2 x3 x4 x5 x6 x7 x8 x9 (ix2 a k)) (fun a => val_main_v54 (F := Ideal) x2 (ix1 a))) (fun a k => x10 (ix2 a k)) (fun a k => x11 (ix2 a k)) (fun a => x12 (ix1 a)) i q * Spec.lin (fun a k => (val_main_v50 (F := Ideal) x0 x1 x2 x3 x4 x5 x6 x7 x8 x9) (ix2 a k)) (Spec.hnDiv (fun a k => val_main_v64 (F := Ideal) x0 x1 x2 x3 x4 x5 x6 x7 x8 x9 (ix2 a k)) (fun a => val_main_v54 (F := Ideal) x2 (ix1 a))) (fun a k => x10 (ix2 a k)) (fun a k => x11 (ix2 a k)) (fun a => x12 (ix1 a)) i q := by
  rw [val_main_v79_apply, val_main_cst_13_apply]
  have h : ∀ q : Fin 64, val_main_v78 (F := Ideal) x0 x1 x2 x3 x4 x5 x6 x7 x8 x9 x10 x11 x12 (idx_main_v79 (ix1 i) q) = Spec.lin (fun a k => (val_main_v50 (F := Ideal) x0 x1 x2 x3 x4 x5 x6 x7 x8 x9) (ix2 a k)) (Spec.hnDiv (fun a k => val_main_v64 (F := Ideal) x0 x1 x2 x3 x4 x5 x6 x7 x8 x9 (ix2 a k)) (fun a => val_main_v54 (F := Ideal) x2 (ix1 a))) (fun a k => x10 (ix2 a k)) (fun a k => x11 (ix2 a k)) (fun a => x12 (ix1 a)) i q * Spec.lin (fun a k => (val_main_v50 (F := Ideal) x0 x1 x2 x3 x4 x5 x6 x7 x8 x9) (ix2 a k)) (Spec.hnDiv (fun a k => val_main_v64 (F := Ideal) x0 x1 x2 x3 x4 x5 x6 x7 x8 x9 (ix2 a k)) (fun a => val_main_v54 (F := Ideal) x2 (ix1 a))) (fun a k => x10 (ix2 a k)) (fun a k => x11 (ix2 a k)) (fun a => x12 (ix1 a)) i q := by
    intro q
    have e : idx_main_v79 (ix1 i) q = ix2 i q := by
      funext a; match a with | ⟨0, _⟩ => rfl | ⟨1, _⟩ => rfl
    rw [e, val_main_v78_apply, l2_lin]
    rfl
  rw [Finset.sum_congr rfl (fun q _ => h q), Ideal.ofBits_def, Ideal.ofBits_zero_f32, zero_add]

/-- The row scaled to unit length: the linear stage divided by the larger of its row's length and the floor. -/
theorem l2_unit (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 x6 x7 x8 x9 : (⟨S64, .f32⟩ : BufTy).Contents (Elt Ideal)) (x10 x11 : (⟨S64x64, .f32⟩ : BufTy).Contents (Elt Ideal)) (x12 : (⟨S64, .f32⟩ : BufTy).Contents (Elt Ideal)) (i : Fin 100000) (j : Fin 64) :
    val_main_v85 (F := Ideal) x0 x1 x2 x3 x4 x5 x6 x7 x8 x9 x10 x11 x12 (ix2 i j) = Spec.layerN (fun a k => (val_main_v50 (F := Ideal) x0 x1 x2 x3 x4 x5 x6 x7 x8 x9) (ix2 a k)) (Spec.hnDiv (fun a k => val_main_v64 (F := Ideal) x0 x1 x2 x3 x4 x5 x6 x7 x8 x9 (ix2 a k)) (fun a => val_main_v54 (F := Ideal) x2 (ix1 a))) (fun a k => x10 (ix2 a k)) (fun a k => x11 (ix2 a k)) (fun a => x12 (ix1 a)) i j := by
  rw [val_main_v85_apply, l2_lin, val_main_v84_apply, val_main_v83_apply, val_main_v81_apply, val_main_v80_apply, val_main_v82_apply, val_main_cst_14_apply]
  have e : idx_main_v80 (idx_main_v84 (ix2 i j)) = ix1 i := by
    funext a; match a with | ⟨0, _⟩ => rfl
  rw [e, l2_sq]
  rfl

/-- The whole layer: the unit row, then the per-channel affine map (subtract, scale, multiply by the reciprocal square
    root of the shifted variance, add), then the clamp below at the word of 0.0. -/
theorem layer2 (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 x6 x7 x8 x9 : (⟨S64, .f32⟩ : BufTy).Contents (Elt Ideal)) (x10 x11 : (⟨S64x64, .f32⟩ : BufTy).Contents (Elt Ideal)) (x12 x13 x14 x15 x16 : (⟨S64, .f32⟩ : BufTy).Contents (Elt Ideal)) (i : Fin 100000) (j : Fin 64) :
    val_main_v101 (F := Ideal) x0 x1 x2 x3 x4 x5 x6 x7 x8 x9 x10 x11 x12 x13 x14 x15 x16 (ix2 i j)
      = Spec.layerB (fun a k => (val_main_v50 (F := Ideal) x0 x1 x2 x3 x4 x5 x6 x7 x8 x9) (ix2 a k))
          (Spec.hnDiv (fun a k => val_main_v64 (F := Ideal) x0 x1 x2 x3 x4 x5 x6 x7 x8 x9 (ix2 a k)) (fun a => val_main_v54 (F := Ideal) x2 (ix1 a)))
          (fun a k => x10 (ix2 a k)) (fun a k => x11 (ix2 a k)) (fun a => x12 (ix1 a))
          (fun a => x13 (ix1 a)) (fun a => x14 (ix1 a)) (fun a => x15 (ix1 a)) (fun a => x16 (ix1 a)) i j := by
  rw [val_main_v101_apply, val_main_v100_apply, val_main_v97_apply, val_main_v91_apply, val_main_v88_apply, l2_unit,
    val_main_v87_apply, val_main_v86_apply, val_main_v90_apply, val_main_v89_apply, val_main_v96_apply, val_main_v95_apply, val_main_v94_apply, val_main_v93_apply, val_main_v92_apply, val_main_cst_15_apply,
    val_main_v99_apply, val_main_v98_apply, val_main_call1_v0_apply, val_main_call1_cst_apply]
  have e1 : idx_main_v86 (idx_main_v87 (ix2 i j)) = ix1 j := by
    funext a; match a with | ⟨0, _⟩ => rfl
  have e2 : idx_main_v89 (idx_main_v90 (ix2 i j)) = ix1 j := by
    funext a; match a with | ⟨0, _⟩ => rfl
  have e3 : idx_main_v95 (idx_main_v96 (ix2 i j)) = ix1 j := by
    funext a; match a with | ⟨0, _⟩ => rfl
  have e4 : idx_main_v98 (idx_main_v99 (ix2 i j)) = ix1 j := by
    funext a; match a with | ⟨0, _⟩ => rfl
  rw [e1, e2, e3, e4]
  rfl

/-! ### Layer 3 -/

/-- The divisor of the neighbours' sum at node i (any column k): the larger of the degree and one. -/
theorem l3_deg (x2 : (⟨S1600000, .i32⟩ : BufTy).Contents (Elt Ideal)) (i : Fin 100000) (k : Fin 64) :
    val_main_v119 (F := Ideal) x2 (ix2 i k) = max (val_main_v105 (F := Ideal) x2 (ix1 i)) Spec.oneW := by
  rw [val_main_v119_apply, val_main_v118_apply]
  have h : idx_main_v118 (idx_main_v119 (ix2 i k)) = ix1 i := by
    funext a; match a with | ⟨0, _⟩ => rfl
  rw [h, val_main_v117_apply, val_main_v116_apply, val_main_cst_21_apply]
  rfl

/-- The neighbours' mean at node i, channel k: their sum divided by max (degree, 1). -/
theorem l3_hn (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 x6 x7 x8 x9 : (⟨S64, .f32⟩ : BufTy).Contents (Elt Ideal)) (x10 x11 : (⟨S64x64, .f32⟩ : BufTy).Contents (Elt Ideal)) (x12 x13 x14 x15 x16 : (⟨S64, .f32⟩ : BufTy).Contents (Elt Ideal)) (i : Fin 100000) (k : Fin 64) :
    val_main_v120 (F := Ideal) x0 x1 x2 x3 x4 x5 x6 x7 x8 x9 x10 x11 x12 x13 x14 x15 x16 (ix2 i k) = (Spec.hnDiv (fun a k => val_main_v115 (F := Ideal) x0 x1 x2 x3 x4 x5 x6 x7 x8 x9 x10 x11 x12 x13 x14 x15 x16 (ix2 a k)) (fun a => val_main_v105 (F := Ideal) x2 (ix1 a))) i k := by
  rw [val_main_v120_apply, l3_deg]
  rfl

/-- Both linear maps and the bias at node i, channel j: each contraction runs over the second coordinate of the
    features and, the weights being transposed first, over the second coordinate of the weights. -/
theorem l3_lin (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 x6 x7 x8 x9 : (⟨S64, .f32⟩ : BufTy).Contents (Elt Ideal)) (x10 x11 : (⟨S64x64, .f32⟩ : BufTy).Contents (Elt Ideal)) (x12 x13 x14 x15 x16 : (⟨S64, .f32⟩ : BufTy).Contents (Elt Ideal)) (x17 x18 : (⟨S64x64, .f32⟩ : BufTy).Contents (Elt Ideal)) (x19 : (⟨S64, .f32⟩ : BufTy).Contents (Elt Ideal)) (i : Fin 100000) (j : Fin 64) :
    val_main_v128 (F := Ideal) x0 x1 x2 x3 x4 x5 x6 x7 x8 x9 x10 x11 x12 x13 x14 x15 x16 x17 x18 x19 (ix2 i j) = Spec.lin (fun a k => (val_main_v101 (F := Ideal) x0 x1 x2 x3 x4 x5 x6 x7 x8 x9 x10 x11 x12 x13 x14 x15 x16) (ix2 a k)) (Spec.hnDiv (fun a k => val_main_v115 (F := Ideal) x0 x1 x2 x3 x4 x5 x6 x7 x8 x9 x10 x11 x12 x13 x14 x15 x16 (ix2 a k)) (fun a => val_main_v105 (F := Ideal) x2 (ix1 a))) (fun a k => x17 (ix2 a k)) (fun a k => x18 (ix2 a k)) (fun a => x19 (ix1 a)) i j := by
  rw [val_main_v128_apply, val_main_v125_apply, val_main_v122_apply, val_main_v124_apply, val_main_v127_apply, val_main_v126_apply]
  have hb : idx_main_v126 (idx_main_v127 (ix2 i j)) = ix1 j := by
    funext a; match a with | ⟨0, _⟩ => rfl
  have h1 : ∀ k : Fin 64, (val_main_v101 (F := Ideal) x0 x1 x2 x3 x4 x5 x6 x7 x8 x9 x10 x11 x12 x13 x14 x15 x16) (lidx_main_v122 (ix2 i j) k) * val_main_v121 (F := Ideal) x17 (ridx_main_v122 (ix2 i j) k)
      = (val_main_v101 (F := Ideal) x0 x1 x2 x3 x4 x5 x6 x7 x8 x9 x10 x11 x12 x13 x14 x15 x16) (ix2 i k) * x17 (ix2 j k) := by
    intro k
    rw [val_main_v121_apply]
    have e1 : lidx_main_v122 (ix2 i j) k = ix2 i k := by
      funext a; match a with | ⟨0, _⟩ => rfl | ⟨1, _⟩ => rfl
    have e2 : idx_main_v121 (ridx_main_v122 (ix2 i j) k) = ix2 j k := by
      funext a; match a with | ⟨0, _⟩ => rfl | ⟨1, _⟩ => rfl
    rw [e1, e2]
  have h2 : ∀ k : Fin 64, val_main_v120 (F := Ideal) x0 x1 x2 x3 x4 x5 x6 x7 x8 x9 x10 x11 x12 x13 x14 x15 x16 (lidx_main_v124 (ix2 i j) k) * val_main_v123 (F := Ideal) x18 (ridx_main_v124 (ix2 i j) k)
      = (Spec.hnDiv (fun a k => val_main_v115 (F := Ideal) x0 x1 x2 x3 x4 x5 x6 x7 x8 x9 x10 x11 x12 x13 x14 x15 x16 (ix2 a k)) (fun a => val_main_v105 (F := Ideal) x2 (ix1 a))) i k * x18 (ix2 j k) := by
    intro k
    rw [val_main_v123_apply]
    have e1 : lidx_main_v124 (ix2 i j) k = ix2 i k := by
      funext a; match a with | ⟨0, _⟩ => rfl | ⟨1, _⟩ => rfl
    have e2 : idx_main_v123 (ridx_main_v124 (ix2 i j) k) = ix2 j k := by
      funext a; match a with | ⟨0, _⟩ => rfl | ⟨1, _⟩ => rfl
    rw [e1, e2, l3_hn]
  rw [hb, Finset.sum_congr rfl (fun k _ => h1 k), Finset.sum_congr rfl (fun k _ => h2 k)]
  rfl

/-- The sum of the squares of row i of the linear stage (the sum starts from the word of 0.0, which is 0). -/
theorem l3_sq (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 x6 x7 x8 x9 : (⟨S64, .f32⟩ : BufTy).Contents (Elt Ideal)) (x10 x11 : (⟨S64x64, .f32⟩ : BufTy).Contents (Elt Ideal)) (x12 x13 x14 x15 x16 : (⟨S64, .f32⟩ : BufTy).Contents (Elt Ideal)) (x17 x18 : (⟨S64x64, .f32⟩ : BufTy).Contents (Elt Ideal)) (x19 : (⟨S64, .f32⟩ : BufTy).Contents (Elt Ideal)) (i : Fin 100000) :
    val_main_v130 (F := Ideal) x0 x1 x2 x3 x4 x5 x6 x7 x8 x9 x10 x11 x12 x13 x14 x15 x16 x17 x18 x19 (ix1 i) = ∑ q : Fin 64, Spec.lin (fun a k => (val_main_v101 (F := Ideal) x0 x1 x2 x3 x4 x5 x6 x7 x8 x9 x10 x11 x12 x13 x14 x15 x16) (ix2 a k)) (Spec.hnDiv (fun a k => val_main_v115 (F := Ideal) x0 x1 x2 x3 x4 x5 x6 x7 x8 x9 x10 x11 x12 x13 x14 x15 x16 (ix2 a k)) (fun a => val_main_v105 (F := Ideal) x2 (ix1 a))) (fun a k => x17 (ix2 a k)) (fun a k => x18 (ix2 a k)) (fun a => x19 (ix1 a)) i q * Spec.lin (fun a k => (val_main_v101 (F := Ideal) x0 x1 x2 x3 x4 x5 x6 x7 x8 x9 x10 x11 x12 x13 x14 x15 x16) (ix2 a k)) (Spec.hnDiv (fun a k => val_main_v115 (F := Ideal) x0 x1 x2 x3 x4 x5 x6 x7 x8 x9 x10 x11 x12 x13 x14 x15 x16 (ix2 a k)) (fun a => val_main_v105 (F := Ideal) x2 (ix1 a))) (fun a k => x17 (ix2 a k)) (fun a k => x18 (ix2 a k)) (fun a => x19 (ix1 a)) i q := by
  rw [val_main_v130_apply, val_main_cst_22_apply]
  have h : ∀ q : Fin 64, val_main_v129 (F := Ideal) x0 x1 x2 x3 x4 x5 x6 x7 x8 x9 x10 x11 x12 x13 x14 x15 x16 x17 x18 x19 (idx_main_v130 (ix1 i) q) = Spec.lin (fun a k => (val_main_v101 (F := Ideal) x0 x1 x2 x3 x4 x5 x6 x7 x8 x9 x10 x11 x12 x13 x14 x15 x16) (ix2 a k)) (Spec.hnDiv (fun a k => val_main_v115 (F := Ideal) x0 x1 x2 x3 x4 x5 x6 x7 x8 x9 x10 x11 x12 x13 x14 x15 x16 (ix2 a k)) (fun a => val_main_v105 (F := Ideal) x2 (ix1 a))) (fun a k => x17 (ix2 a k)) (fun a k => x18 (ix2 a k)) (fun a => x19 (ix1 a)) i q * Spec.lin (fun a k => (val_main_v101 (F := Ideal) x0 x1 x2 x3 x4 x5 x6 x7 x8 x9 x10 x11 x12 x13 x14 x15 x16) (ix2 a k)) (Spec.hnDiv (fun a k => val_main_v115 (F := Ideal) x0 x1 x2 x3 x4 x5 x6 x7 x8 x9 x10 x11 x12 x13 x14 x15 x16 (ix2 a k)) (fun a => val_main_v105 (F := Ideal) x2 (ix1 a))) (fun a k => x17 (ix2 a k)) (fun a k => x18 (ix2 a k)) (fun a => x19 (ix1 a)) i q := by
    intro q
    have e : idx_main_v130 (ix1 i) q = ix2 i q := by
      funext a; match a with | ⟨0, _⟩ => rfl | ⟨1, _⟩ => rfl
    rw [e, val_main_v129_apply, l3_lin]
    rfl
  rw [Finset.sum_congr rfl (fun q _ => h q), Ideal.ofBits_def, Ideal.ofBits_zero_f32, zero_add]

/-- The row scaled to unit length: the linear stage divided by the larger of its row's length and the floor. -/
theorem l3_unit (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 x6 x7 x8 x9 : (⟨S64, .f32⟩ : BufTy).Contents (Elt Ideal)) (x10 x11 : (⟨S64x64, .f32⟩ : BufTy).Contents (Elt Ideal)) (x12 x13 x14 x15 x16 : (⟨S64, .f32⟩ : BufTy).Contents (Elt Ideal)) (x17 x18 : (⟨S64x64, .f32⟩ : BufTy).Contents (Elt Ideal)) (x19 : (⟨S64, .f32⟩ : BufTy).Contents (Elt Ideal)) (i : Fin 100000) (j : Fin 64) :
    val_main_v136 (F := Ideal) x0 x1 x2 x3 x4 x5 x6 x7 x8 x9 x10 x11 x12 x13 x14 x15 x16 x17 x18 x19 (ix2 i j) = Spec.layerN (fun a k => (val_main_v101 (F := Ideal) x0 x1 x2 x3 x4 x5 x6 x7 x8 x9 x10 x11 x12 x13 x14 x15 x16) (ix2 a k)) (Spec.hnDiv (fun a k => val_main_v115 (F := Ideal) x0 x1 x2 x3 x4 x5 x6 x7 x8 x9 x10 x11 x12 x13 x14 x15 x16 (ix2 a k)) (fun a => val_main_v105 (F := Ideal) x2 (ix1 a))) (fun a k => x17 (ix2 a k)) (fun a k => x18 (ix2 a k)) (fun a => x19 (ix1 a)) i j := by
  rw [val_main_v136_apply, l3_lin, val_main_v135_apply, val_main_v134_apply, val_main_v132_apply, val_main_v131_apply, val_main_v133_apply, val_main_cst_23_apply]
  have e : idx_main_v131 (idx_main_v135 (ix2 i j)) = ix1 i := by
    funext a; match a with | ⟨0, _⟩ => rfl
  rw [e, l3_sq]
  rfl

/-- The last layer is the unit row itself. -/
theorem layer3 (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 x6 x7 x8 x9 : (⟨S64, .f32⟩ : BufTy).Contents (Elt Ideal)) (x10 x11 : (⟨S64x64, .f32⟩ : BufTy).Contents (Elt Ideal)) (x12 x13 x14 x15 x16 : (⟨S64, .f32⟩ : BufTy).Contents (Elt Ideal)) (x17 x18 : (⟨S64x64, .f32⟩ : BufTy).Contents (Elt Ideal)) (x19 : (⟨S64, .f32⟩ : BufTy).Contents (Elt Ideal)) (i : Fin 100000) (j : Fin 64) :
    val_main_v136 (F := Ideal) x0 x1 x2 x3 x4 x5 x6 x7 x8 x9 x10 x11 x12 x13 x14 x15 x16 x17 x18 x19 (ix2 i j) = Spec.layerN (fun a k => (val_main_v101 (F := Ideal) x0 x1 x2 x3 x4 x5 x6 x7 x8 x9 x10 x11 x12 x13 x14 x15 x16) (ix2 a k)) (Spec.hnDiv (fun a k => val_main_v115 (F := Ideal) x0 x1 x2 x3 x4 x5 x6 x7 x8 x9 x10 x11 x12 x13 x14 x15 x16 (ix2 a k)) (fun a => val_main_v105 (F := Ideal) x2 (ix1 a))) (fun a k => x17 (ix2 a k)) (fun a k => x18 (ix2 a k)) (fun a => x19 (ix1 a)) i j :=
  l3_unit x0 x1 x2 x3 x4 x5 x6 x7 x8 x9 x10 x11 x12 x13 x14 x15 x16 x17 x18 x19 i j

end Cert.Sage.RefLayers

end
-- ==== Proof.Bridge.lean ====
/-
  The three layers chained: each layer's result array of the kernel program IS the corresponding stage of the
  reference program, as one function of the launch arguments.

  Layer by layer: the array the layer's grid leaves is the layer's function of the arrays it is entered with
  (the layer modules); those arrays are the launch arguments, the previous layer's result, the neighbours' sums of
  the previous result and the reciprocal-degree column (the host operations read as functions); the sum times the
  reciprocal is the sum over max (degree, 1); and the reference's stage is the same layer function of the same
  arrays.  The gather and the scatter-add are the same functions in both programs and are never opened.
-/
import proofs.«153891_j51084341018874_2_alg».proof.Proof.KRun
import proofs.«153891_j51084341018874_2_alg».proof.Proof.Layer0
import proofs.«153891_j51084341018874_2_alg».proof.Proof.Layer1
import proofs.«153891_j51084341018874_2_alg».proof.Proof.Layer2
import proofs.«153891_j51084341018874_2_alg».proof.Proof.HostReads
import proofs.«153891_j51084341018874_2_alg».proof.Proof.RefLayers
import Idealize.ShloMosaic.Lib.ValueLayout

set_option maxRecDepth 16384

noncomputable section

namespace Cert.Sage.Bridge

open Idealize.ShloMosaic Idealize.ShloMosaic.TcCoe Idealize.ShloMosaic.ValueIdx Idealize.SL.Sem
open Idealize.ShloMosaic.Pipeline (Dat)
open Cert.KernelIdeal Cert.KernelIdeal.Gen

/-! ## The shared gather and scatter-add: one function in both programs -/

theorem agg1 (h : (⟨S100000x64, .f32⟩ : BufTy).Contents (Elt Ideal)) (e1 e2 : (⟨S1600000, .i32⟩ : BufTy).Contents (Elt Ideal)) :
    Host.aggK h e1 e2 = Cert.ReferenceIdeal.Read.val_main_v13 (F := Ideal) h e1 e2 := rfl
theorem deg1 (e2 : (⟨S1600000, .i32⟩ : BufTy).Contents (Elt Ideal)) : Host.degK e2 = Cert.ReferenceIdeal.Read.val_main_v3 (F := Ideal) e2 := rfl
theorem agg2 (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 x6 x7 x8 x9 : (⟨S64, .f32⟩ : BufTy).Contents (Elt Ideal)) :
    Host.aggK (Cert.ReferenceIdeal.Read.val_main_v50 (F := Ideal) x0 x1 x2 x3 x4 x5 x6 x7 x8 x9) x1 x2 = Cert.ReferenceIdeal.Read.val_main_v64 (F := Ideal) x0 x1 x2 x3 x4 x5 x6 x7 x8 x9 := rfl
theorem deg2 (e2 : (⟨S1600000, .i32⟩ : BufTy).Contents (Elt Ideal)) : Host.degK e2 = Cert.ReferenceIdeal.Read.val_main_v54 (F := Ideal) e2 := rfl
theorem agg3 (x0 : (⟨S100000x64, .f32⟩ : BufTy).Contents (Elt Ideal)) (x1 x2 : (⟨S1600000, .i32⟩ : BufTy).Contents (Elt Ideal)) (x3 x4 : (⟨S64x64, .f32⟩ : BufTy).Contents (Elt Ideal)) (x5 x6 x7 x8 x9 : (⟨S64, .f32⟩ : BufTy).Contents (Elt Ideal)) (x10 x11 : (⟨S64x64, .f32⟩ : BufTy).Contents (Elt Ideal)) (x12 x13 x14 x15 x16 : (⟨S64, .f32⟩ : BufTy).Contents (Elt Ideal)) :
    Host.aggK (Cert.ReferenceIdeal.Read.val_main_v101 (F := Ideal) x0 x1 x2 x3 x4 x5 x6 x7 x8 x9 x10 x11 x12 x13 x14 x15 x16) x1 x2 = Cert.ReferenceIdeal.Read.val_main_v115 (F := Ideal) x0 x1 x2 x3 x4 x5 x6 x7 x8 x9 x10 x11 x12 x13 x14 x15 x16 := rfl
theorem deg3 (e2 : (⟨S1600000, .i32⟩ : BufTy).Contents (Elt Ideal)) : Host.degK e2 = Cert.ReferenceIdeal.Read.val_main_v105 (F := Ideal) e2 := rfl

variable (m : (ℓ : Loc nD τ sig) → Buf (Elt Ideal) ℓ) (ρ : Dev nD → PrngReg) (c : Dev nD)

/-! ## The arguments and the reciprocal-degree column through the program's segments -/

theorem W2_arg1 : W2 m ρ c (Proc.devRef .tc main_arg1) = (m ((c : Thread nD τ).loc main_arg1)) :=
  (W2_of_ne m ρ c main_arg1 (by decide)).trans (Host.pre0_main_arg1 (W0 m ρ c))
theorem W2_arg2 : W2 m ρ c (Proc.devRef .tc main_arg2) = (m ((c : Thread nD τ).loc main_arg2)) :=
  (W2_of_ne m ρ c main_arg2 (by decide)).trans (Host.pre0_main_arg2 (W0 m ρ c))
theorem W2_arg10 : W2 m ρ c (Proc.devRef .tc main_arg10) = (m ((c : Thread nD τ).loc main_arg10)) :=
  (W2_of_ne m ρ c main_arg10 (by decide)).trans (Host.pre0_main_arg10 (W0 m ρ c))
theorem W2_arg11 : W2 m ρ c (Proc.devRef .tc main_arg11) = (m ((c : Thread nD τ).loc main_arg11)) :=
  (W2_of_ne m ρ c main_arg11 (by decide)).trans (Host.pre0_main_arg11 (W0 m ρ c))
theorem W2_arg12 : W2 m ρ c (Proc.devRef .tc main_arg12) = (m ((c : Thread nD τ).loc main_arg12)) :=
  (W2_of_ne m ρ c main_arg12 (by decide)).trans (Host.pre0_main_arg12 (W0 m ρ c))
theorem W2_arg13 : W2 m ρ c (Proc.devRef .tc main_arg13) = (m ((c : Thread nD τ).loc main_arg13)) :=
  (W2_of_ne m ρ c main_arg13 (by decide)).trans (Host.pre0_main_arg13 (W0 m ρ c))
theorem W2_arg14 : W2 m ρ c (Proc.devRef .tc main_arg14) = (m ((c : Thread nD τ).loc main_arg14)) :=
  (W2_of_ne m ρ c main_arg14 (by decide)).trans (Host.pre0_main_arg14 (W0 m ρ c))
theorem W2_arg15 : W2 m ρ c (Proc.devRef .tc main_arg15) = (m ((c : Thread nD τ).loc main_arg15)) :=
  (W2_of_ne m ρ c main_arg15 (by decide)).trans (Host.pre0_main_arg15 (W0 m ρ c))
theorem W2_arg16 : W2 m ρ c (Proc.devRef .tc main_arg16) = (m ((c : Thread nD τ).loc main_arg16)) :=
  (W2_of_ne m ρ c main_arg16 (by decide)).trans (Host.pre0_main_arg16 (W0 m ρ c))
theorem W2_arg17 : W2 m ρ c (Proc.devRef .tc main_arg17) = (m ((c : Thread nD τ).loc main_arg17)) :=
  (W2_of_ne m ρ c main_arg17 (by decide)).trans (Host.pre0_main_arg17 (W0 m ρ c))
theorem W2_arg18 : W2 m ρ c (Proc.devRef .tc main_arg18) = (m ((c : Thread nD τ).loc main_arg18)) :=
  (W2_of_ne m ρ c main_arg18 (by decide)).trans (Host.pre0_main_arg18 (W0 m ρ c))
theorem W2_arg19 : W2 m ρ c (Proc.devRef .tc main_arg19) = (m ((c : Thread nD τ).loc main_arg19)) :=
  (W2_of_ne m ρ c main_arg19 (by decide)).trans (Host.pre0_main_arg19 (W0 m ρ c))
theorem W4_arg1 : W4 m ρ c (Proc.devRef .tc main_arg1) = (m ((c : Thread nD τ).loc main_arg1)) :=
  (W4_of_ne m ρ c main_arg1 (by decide)).trans ((Host.pre1_main_arg1 (W2 m ρ c)).trans (W2_arg1 m ρ c))
theorem W4_arg2 : W4 m ρ c (Proc.devRef .tc main_arg2) = (m ((c : Thread nD τ).loc main_arg2)) :=
  (W4_of_ne m ρ c main_arg2 (by decide)).trans ((Host.pre1_main_arg2 (W2 m ρ c)).trans (W2_arg2 m ρ c))
theorem W4_arg17 : W4 m ρ c (Proc.devRef .tc main_arg17) = (m ((c : Thread nD τ).loc main_arg17)) :=
  (W4_of_ne m ρ c main_arg17 (by decide)).trans ((Host.pre1_main_arg17 (W2 m ρ c)).trans (W2_arg17 m ρ c))
theorem W4_arg18 : W4 m ρ c (Proc.devRef .tc main_arg18) = (m ((c : Thread nD τ).loc main_arg18)) :=
  (W4_of_ne m ρ c main_arg18 (by decide)).trans ((Host.pre1_main_arg18 (W2 m ρ c)).trans (W2_arg18 m ρ c))
theorem W4_arg19 : W4 m ρ c (Proc.devRef .tc main_arg19) = (m ((c : Thread nD τ).loc main_arg19)) :=
  (W4_of_ne m ρ c main_arg19 (by decide)).trans ((Host.pre1_main_arg19 (W2 m ρ c)).trans (W2_arg19 m ρ c))
theorem W2_inv : W2 m ρ c (Proc.devRef .tc main_v8) = Host.invK (m ((c : Thread nD τ).loc main_arg2)) :=
  (W2_arr m ρ c 2).trans (((dat0 (V1 m ρ) c).arrAt_in 2 rfl _).trans ((A_eq0 (V1 m ρ) c 2).trans (Host.pre0_inv (W0 m ρ c))))
theorem W4_inv : W4 m ρ c (Proc.devRef .tc main_v8) = Host.invK (m ((c : Thread nD τ).loc main_arg2)) :=
  (W4_arr m ρ c 2).trans (((dat1 (V3 m ρ) c).arrAt_in 2 rfl _).trans ((A_eq1 (V3 m ρ) c 2).trans ((Host.pre1_main_v8 (W2 m ρ c)).trans (W2_inv m ρ c))))

/-! ## The first layer -/

theorem first : W2 m ρ c (Proc.devRef .tc main_v26) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W2 m ρ c (Proc.devRef .tc main_v26) = Layer0.G (V1 m ρ) c from (W2_arr m ρ c 10).trans (Layer0.final (V1 m ρ) c)]
  funext i
  obtain ⟨a, j, rfl⟩ : ∃ (a : Fin 100000) (j : Fin 64), i = ix2 a j := ⟨i 0, i 1, eq_ix2 i⟩
  rw [RefLayers.layer1]
  unfold Layer0.G
  rw [show Layer0.rowOf (ix2 a j) = a from rfl, show Layer0.colOf (ix2 a j) = j from rfl]
  have e0 : (V1 m ρ c main_arg0 : S100000x64.Idx → EReal) = (m ((c : Thread nD τ).loc main_arg0)) := Host.pre0_main_arg0 (W0 m ρ c)
  have e20 : (V1 m ρ c main_v20 : S100000x64.Idx → EReal) = Host.aggK (m ((c : Thread nD τ).loc main_arg0)) (m ((c : Thread nD τ).loc main_arg1)) (m ((c : Thread nD τ).loc main_arg2)) := Host.pre0_agg (W0 m ρ c)
  have e8 : (V1 m ρ c main_v8 : S100000x1.Idx → EReal) = Host.invK (m ((c : Thread nD τ).loc main_arg2)) := Host.pre0_inv (W0 m ρ c)
  have e3 : (V1 m ρ c main_arg3 : S64x64.Idx → EReal) = (m ((c : Thread nD τ).loc main_arg3)) := Host.pre0_main_arg3 (W0 m ρ c)
  have e4 : (V1 m ρ c main_arg4 : S64x64.Idx → EReal) = (m ((c : Thread nD τ).loc main_arg4)) := Host.pre0_main_arg4 (W0 m ρ c)
  have e21 : (V1 m ρ c main_v21 : S1x64.Idx → EReal) = shapeCast S1x64 (m ((c : Thread nD τ).loc main_arg5)) shapeCasts_S64_S1x64 := Host.pre0_main_v21 (W0 m ρ c)
  have e22 : (V1 m ρ c main_v22 : S1x64.Idx → EReal) = shapeCast S1x64 (m ((c : Thread nD τ).loc main_arg6)) shapeCasts_S64_S1x64 := Host.pre0_main_v22 (W0 m ρ c)
  have e23 : (V1 m ρ c main_v23 : S1x64.Idx → EReal) = shapeCast S1x64 (m ((c : Thread nD τ).loc main_arg7)) shapeCasts_S64_S1x64 := Host.pre0_main_v23 (W0 m ρ c)
  have e24 : (V1 m ρ c main_v24 : S1x64.Idx → EReal) = shapeCast S1x64 (m ((c : Thread nD τ).loc main_arg8)) shapeCasts_S64_S1x64 := Host.pre0_main_v24 (W0 m ρ c)
  have e25 : (V1 m ρ c main_v25 : S1x64.Idx → EReal) = shapeCast S1x64 (m ((c : Thread nD τ).loc main_arg9)) shapeCasts_S64_S1x64 := Host.pre0_main_v25 (W0 m ρ c)
  rw [e0, e20, e8, e3, e4, e21, e22, e23, e24, e25]
  rw [Host.hn_eq]
  simp only [shapeCast_a_1a_apply]
  rw [agg1, deg1]

/-! ## The second layer -/

theorem second : W4 m ρ c (Proc.devRef .tc main_v44) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have e26 : (V3 m ρ c main_v26 : S100000x64.Idx → EReal) = (Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
    (Host.pre1_main_v26 (W2 m ρ c)).trans (first m ρ c)
  have e38 : (V3 m ρ c main_v38 : S100000x64.Idx → EReal) = Host.aggK (Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)) (m ((c : Thread nD τ).loc main_arg2)) :=
    (Host.pre1_agg (W2 m ρ c)).trans (congr (congr (congrArg Host.aggK (first m ρ c)) (W2_arg1 m ρ c)) (W2_arg2 m ρ c))
  have e8 : (V3 m ρ c main_v8 : S100000x1.Idx → EReal) = Host.invK (m ((c : Thread nD τ).loc main_arg2)) := (Host.pre1_main_v8 (W2 m ρ c)).trans (W2_inv m ρ c)
  have e10 : (V3 m ρ c main_arg10 : S64x64.Idx → EReal) = (m ((c : Thread nD τ).loc main_arg10)) := (Host.pre1_main_arg10 (W2 m ρ c)).trans (W2_arg10 m ρ c)
  have e11 : (V3 m ρ c main_arg11 : S64x64.Idx → EReal) = (m ((c : Thread nD τ).loc main_arg11)) := (Host.pre1_main_arg11 (W2 m ρ c)).trans (W2_arg11 m ρ c)
  have e39 : (V3 m ρ c main_v39 : S1x64.Idx → EReal) = shapeCast S1x64 (m ((c : Thread nD τ).loc main_arg12)) shapeCasts_S64_S1x64 :=
    (Host.pre1_main_v39 (W2 m ρ c)).trans (congrArg (fun x => shapeCast S1x64 x shapeCasts_S64_S1x64) (W2_arg12 m ρ c))
  have e40 : (V3 m ρ c main_v40 : S1x64.Idx → EReal) = shapeCast S1x64 (m ((c : Thread nD τ).loc main_arg13)) shapeCasts_S64_S1x64 :=
    (Host.pre1_main_v40 (W2 m ρ c)).trans (congrArg (fun x => shapeCast S1x64 x shapeCasts_S64_S1x64) (W2_arg13 m ρ c))
  have e41 : (V3 m ρ c main_v41 : S1x64.Idx → EReal) = shapeCast S1x64 (m ((c : Thread nD τ).loc main_arg14)) shapeCasts_S64_S1x64 :=
    (Host.pre1_main_v41 (W2 m ρ c)).trans (congrArg (fun x => shapeCast S1x64 x shapeCasts_S64_S1x64) (W2_arg14 m ρ c))
  have e42 : (V3 m ρ c main_v42 : S1x64.Idx → EReal) = shapeCast S1x64 (m ((c : Thread nD τ).loc main_arg15)) shapeCasts_S64_S1x64 :=
    (Host.pre1_main_v42 (W2 m ρ c)).trans (congrArg (fun x => shapeCast S1x64 x shapeCasts_S64_S1x64) (W2_arg15 m ρ c))
  have e43 : (V3 m ρ c main_v43 : S1x64.Idx → EReal) = shapeCast S1x64 (m ((c : Thread nD τ).loc main_arg16)) shapeCasts_S64_S1x64 :=
    (Host.pre1_main_v43 (W2 m ρ c)).trans (congrArg (fun x => shapeCast S1x64 x shapeCasts_S64_S1x64) (W2_arg16 m ρ c))
  refine ((W4_arr m ρ c 10).trans (Layer1.final (V3 m ρ) c)).trans
    ((Layer1.G_eq (V3 m ρ) c _ _ _ _ _ _ _ _ _ _ e26 e38 e8 e10 e11 e39 e40 e41 e42 e43).trans ?_)
  funext i
  obtain ⟨a, j, rfl⟩ : ∃ (a : Fin 100000) (j : Fin 64), i = ix2 a j := ⟨i 0, i 1, eq_ix2 i⟩
  rw [RefLayers.layer2]
  show Spec.layerB _ _ _ _ _ _ _ _ _ (Layer1.rowOf (ix2 a j)) (Layer1.colOf (ix2 a j)) = _
  rw [show Layer1.rowOf (ix2 a j) = a from rfl, show Layer1.colOf (ix2 a j) = j from rfl]
  rw [Host.hn_eq]
  simp only [shapeCast_a_1a_apply]
  rw [agg2, deg2]

/-! ## The third layer -/

theorem third : W6 m ρ c (Proc.devRef .tc main_v58) = Cert.ReferenceIdeal.Read.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  have e44 : (V5 m ρ c main_v44 : S100000x64.Idx → EReal) = (Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) :=
    (Host.pre2_main_v44 (W4 m ρ c)).trans (second m ρ c)
  have e56 : (V5 m ρ c main_v56 : S100000x64.Idx → EReal) = Host.aggK (Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg1)) (m ((c : Thread nD τ).loc main_arg2)) :=
    (Host.pre2_agg (W4 m ρ c)).trans (congr (congr (congrArg Host.aggK (second m ρ c)) (W4_arg1 m ρ c)) (W4_arg2 m ρ c))
  have e8 : (V5 m ρ c main_v8 : S100000x1.Idx → EReal) = Host.invK (m ((c : Thread nD τ).loc main_arg2)) := (Host.pre2_main_v8 (W4 m ρ c)).trans (W4_inv m ρ c)
  have e17 : (V5 m ρ c main_arg17 : S64x64.Idx → EReal) = (m ((c : Thread nD τ).loc main_arg17)) := (Host.pre2_main_arg17 (W4 m ρ c)).trans (W4_arg17 m ρ c)
  have e18 : (V5 m ρ c main_arg18 : S64x64.Idx → EReal) = (m ((c : Thread nD τ).loc main_arg18)) := (Host.pre2_main_arg18 (W4 m ρ c)).trans (W4_arg18 m ρ c)
  have e57 : (V5 m ρ c main_v57 : S1x64.Idx → EReal) = shapeCast S1x64 (m ((c : Thread nD τ).loc main_arg19)) shapeCasts_S64_S1x64 :=
    (Host.pre2_main_v57 (W4 m ρ c)).trans (congrArg (fun x => shapeCast S1x64 x shapeCasts_S64_S1x64) (W4_arg19 m ρ c))
  refine ((W6_arr m ρ c 6).trans (Layer2.final (V5 m ρ) c)).trans
    ((Layer2.G_eq (V5 m ρ) c _ _ _ _ _ _ e44 e56 e8 e17 e18 e57).trans ?_)
  funext i
  obtain ⟨a, j, rfl⟩ : ∃ (a : Fin 100000) (j : Fin 64), i = ix2 a j := ⟨i 0, i 1, eq_ix2 i⟩
  rw [RefLayers.layer3]
  show Spec.layerN _ _ _ _ _ (Layer2.rowOf (ix2 a j)) (Layer2.colOf (ix2 a j)) = _
  rw [show Layer2.rowOf (ix2 a j) = a from rfl, show Layer2.colOf (ix2 a j) = j from rfl]
  rw [Host.hn_eq]
  simp only [shapeCast_a_1a_apply]
  rw [agg3, deg3]

end Cert.Sage.Bridge

end
-- ==== Proof.lean ====
/-
  A three-layer graph convolution — per layer: the neighbours' mean of the node features, two 64×64 linear maps and a
  bias, each node's row scaled to unit length, and for the first two layers a per-channel affine map with a reciprocal
  square root of a shifted variance and a clamp at zero — computed by a program of three tiled regions among host
  gathers and scatter-adds, against the same computation written as host operations only.

  On the extended reals the two programs differ in one place: the tiled program multiplies the neighbours' sum by a
  precomputed 1 / max (degree, 1) where the other divides by max (degree, 1).  The divisor is at least one, hence not
  zero, and off zero both are the product with the divisor's inverse (Spec.mul_recip): no finiteness is needed and the
  precondition is never opened.  Everything else is the same arithmetic in another arrangement: changes of float
  format are the identity, a matrix product into a zero accumulator and a host contraction are the same sum over the
  64 contracted channels, a lane sum and a host sum are the same sum over a row, and 25 blocks of 4000 rows tile the
  100000 rows.  The gather and the scatter-add are the same functions in both programs and stay closed.

  The common value of the two results is the reference's own last stage, as a function of the launch arguments: the
  tiled program's result array is shown to hold it (Bridge.third over the run with its result named), and the
  reference's generated run ends at it.  The frames are the generated ones; the idealization rewrote nothing.
-/
import proofs.«153891_j51084341018874_2_alg».proof.Defs
import proofs.«153891_j51084341018874_2_alg».proof.Proof.Gen.Kernel
import proofs.«153891_j51084341018874_2_alg».proof.Proof.Gen.Kernel.Skeleton
import proofs.«153891_j51084341018874_2_alg».proof.Proof.Gen.Kernel.Launch
import proofs.«153891_j51084341018874_2_alg».proof.Proof.Gen.Kernel.Points
import proofs.«153891_j51084341018874_2_alg».proof.Proof.Gen.Kernel.Frame
import proofs.«153891_j51084341018874_2_alg».proof.Proof.Gen.KernelIdeal
import proofs.«153891_j51084341018874_2_alg».proof.Proof.Gen.KernelIdeal.Skeleton
import proofs.«153891_j51084341018874_2_alg».proof.Proof.Gen.KernelIdeal.Launch
import proofs.«153891_j51084341018874_2_alg».proof.Proof.Gen.KernelIdeal.Points
import proofs.«153891_j51084341018874_2_alg».proof.Proof.Gen.KernelIdeal.Frame
import proofs.«153891_j51084341018874_2_alg».proof.Proof.Gen.ReferenceIdeal
import proofs.«153891_j51084341018874_2_alg».proof.Proof.Gen.Pre_finite_inputs
import proofs.«153891_j51084341018874_2_alg».proof.Proof.Gen.ReferenceIdeal.Run
import proofs.«153891_j51084341018874_2_alg».proof.Proof.Gen.ReferenceIdeal.Read
import proofs.«153891_j51084341018874_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's last stage of the launch arguments in their result arrays. -/
theorem algebraic : Cert.algebraic_KernelIdeal_ReferenceIdeal := by
  intro m ρ m' ρ' _ hagree
  refine ⟨fun c => Cert.ReferenceIdeal.Read.val_main_v136 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono
      (fun _ h c => ⟨(h c).1.trans (Cert.Sage.Bridge.third m ρ c), (h c).2⟩) (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19⟩ := hagree c
    rw [Cert.ReferenceIdeal.Read.val_main_v136_eq, h0, h1, h2, h3, h4, h5, h6, h7, h8, h9, h10, h11, h12, h13, h14, h15, h16, h17, h18, h19]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
